-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S64x64 : Shape := ⟨2, ![64, 64]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S4x2048x1024 .f32) (main_arg1 : FVec F S64x64 .f32) (main_arg2 : FVec F S64x64 .f32) (main_arg3 : FVec F S64x64 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S4x2048x1024 : Shape := ⟨3, ![4, 2048, 1024]⟩
abbrev S64x64 : Shape := ⟨2, ![64, 64]⟩
abbrev S_ : Shape := ⟨0, ![]⟩
abbrev S64x128 : Shape := ⟨2, ![64, 128]⟩
abbrev S128x128 : Shape := ⟨2, ![128, 128]⟩
abbrev S1x2048x128 : Shape := ⟨3, ![1, 2048, 128]⟩
abbrev S2048x128 : Shape := ⟨2, ![2048, 128]⟩
abbrev S2048x64 : Shape := ⟨2, ![2048, 64]⟩
abbrev S512x64 : Shape := ⟨2, ![512, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S512x128 : Shape := ⟨2, ![512, 128]⟩
abbrev S1x512x128 : Shape := ⟨3, ![1, 512, 128]⟩

abbrev nBuf : Space → Nat
  | .hbm => 20
  | .vmem => 7
  | .smem => 0
  | _ => 0

abbrev bufTy : (tb : Table) → Fin (tcTables nBuf tb) → BufTy
  | .hbm, ⟨0, _⟩ => ⟨S4x2048x1024, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S_, .f32⟩
  | .hbm, ⟨5, _⟩ => ⟨S64x64, .f32⟩
  | .hbm, ⟨6, _⟩ => ⟨S64x128, .f32⟩
  | .hbm, ⟨7, _⟩ => ⟨S64x128, .f32⟩
  | .hbm, ⟨8, _⟩ => ⟨S128x128, .f32⟩
  | .hbm, ⟨9, _⟩ => ⟨S_, .f32⟩
  | .hbm, ⟨10, _⟩ => ⟨S64x64, .f32⟩
  | .hbm, ⟨11, _⟩ => ⟨S64x128, .f32⟩
  | .hbm, ⟨12, _⟩ => ⟨S64x128, .f32⟩
  | .hbm, ⟨13, _⟩ => ⟨S128x128, .f32⟩
  | .hbm, ⟨14, _⟩ => ⟨S_, .f32⟩
  | .hbm, ⟨15, _⟩ => ⟨S64x64, .f32⟩
  | .hbm, ⟨16, _⟩ => ⟨S64x128, .f32⟩
  | .hbm, ⟨17, _⟩ => ⟨S64x128, .f32⟩
  | .hbm, ⟨18, _⟩ => ⟨S128x128, .f32⟩
  | .hbm, ⟨19, _⟩ => ⟨S4x2048x1024, .f32⟩
  | .local _ .vmem, ⟨0, _⟩ => ⟨S1x2048x128, .f32⟩
  | .local _ .vmem, ⟨1, _⟩ => ⟨S1x2048x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S1x2048x128, .f32⟩
  | .local _ .vmem, ⟨6, _⟩ => ⟨S1x2048x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S64x64 : S_.BroadcastsInDim S64x64 (![] : Fin 0 → Fin S64x64.rank)
  concatenates_S64x64_S64x64_S64x128_d1 : Shape.Concatenates [S64x64, S64x64] S64x128 1
  concatenates_S64x128_S64x128_S128x128_d0 : Shape.Concatenates [S64x128, S64x128] S128x128 0
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  slices_S2048x128_o0_0_S2048x64 : S2048x128.Slices ![0, 0] S2048x64
  slices_S2048x128_o0_64_S2048x64 : S2048x128.Slices ![0, 64] S2048x64
  slices_S2048x64_o0_0_S512x64 : S2048x64.Slices ![0, 0] S512x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  concatenates_S512x64_S512x64_S512x128_d1 : Shape.Concatenates [S512x64, S512x64] S512x128 1
  inb_S1x2048x128_S1x512x128_0_0_0 : ∀ a, (![0, 0, 0] : Fin 3 → Nat) a + S1x512x128.size a ≤ S1x2048x128.size a
  h_S1x512x128 : 0 < S1x512x128.numel
  shapeCasts_S1x512x128_S512x128 : S1x512x128.ShapeCasts S512x128
  shapeCasts_S512x128_S1x512x128 : S512x128.ShapeCasts S1x512x128
  slices_S2048x64_o512_0_S512x64 : S2048x64.Slices ![512, 0] S512x64
  inb_S1x2048x128_S1x512x128_0_512_0 : ∀ a, (![0, 512, 0] : Fin 3 → Nat) a + S1x512x128.size a ≤ S1x2048x128.size a
  slices_S2048x64_o1024_0_S512x64 : S2048x64.Slices ![1024, 0] S512x64
  inb_S1x2048x128_S1x512x128_0_1024_0 : ∀ a, (![0, 1024, 0] : Fin 3 → Nat) a + S1x512x128.size a ≤ S1x2048x128.size a
  slices_S2048x64_o1536_0_S512x64 : S2048x64.Slices ![1536, 0] S512x64
  inb_S1x2048x128_S1x512x128_0_1536_0 : ∀ a, (![0, 1536, 0] : Fin 3 → Nat) a + S1x512x128.size a ≤ S1x2048x128.size a
  dot_S2048x128_S128x128_S2048x128_1_0_0_1_n_n_wf : DotDims.WF S2048x128 S128x128 S2048x128 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S4x2048x1024.size a
  hwx0_0 : ∀ i : grid0.Coords, EltTy.bits .f32 = 32 ∨ (Rect.block (s := S4x2048x1024) S1x2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x128.size a ≤ S4x2048x1024.size a
  hwx0_4 : ∀ i : grid0.Coords, EltTy.bits .f32 = 32 ∨ (Rect.block (s := S4x2048x1024) S1x2048x128.size (cc0_transform_4 i) (hinb0_4 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S64x64 : Shape := ⟨2, ![64, 64]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S64x64, .f32⟩
  | .hbm, ⟨2, _⟩ => ⟨S64x64, .f32⟩
  | .hbm, ⟨3, _⟩ => ⟨S64x64, .f32⟩
  | .hbm, ⟨4, _⟩ => ⟨S4x2048x16x64, .f32⟩
  | .hbm, ⟨5, _⟩ => ⟨S4x16x2048x64, .f32⟩
  | .hbm, ⟨6, _⟩ => ⟨S4x16x2048x64, .f32⟩
  | .hbm, ⟨7, _⟩ => ⟨S4x16x2048x64, .f32⟩
  | .hbm, ⟨8, _⟩ => ⟨S4x16x2048x64, .f32⟩
  | .hbm, ⟨9, _⟩ => ⟨S4x16x2048x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x16x2048x2048, .f32⟩
  | .hbm, ⟨14, _⟩ => ⟨S4x16x2048x2048, .f32⟩
  | .hbm, ⟨15, _⟩ => ⟨S_, .f32⟩
  | .hbm, ⟨16, _⟩ => ⟨S4x16x2048, .f32⟩
  | .hbm, ⟨17, _⟩ => ⟨S_, .f32⟩
  | .hbm, ⟨18, _⟩ => ⟨S4x16x2048, .f32⟩
  | .hbm, ⟨19, _⟩ => ⟨S4x16x2048, .f32⟩
  | .hbm, ⟨20, _⟩ => ⟨S4x16x2048x1, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S4x16x2048, .f32⟩
  | .hbm, ⟨26, _⟩ => ⟨S4x16x2048x1, .f32⟩
  | .hbm, ⟨27, _⟩ => ⟨S4x16x2048x2048, .f32⟩
  | .hbm, ⟨28, _⟩ => ⟨S4x16x2048x2048, .f32⟩
  | .hbm, ⟨29, _⟩ => ⟨S4x16x2048x64, .f32⟩
  | .hbm, ⟨30, _⟩ => ⟨S4x16x2048x64, .f32⟩
  | .hbm, ⟨31, _⟩ => ⟨S4x2048x16x64, .f32⟩
  | .hbm, ⟨32, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x16x2048x64_S64x64_S4x16x2048x64_3_1_012_0_n_n_wf : DotDims.WF S4x16x2048x64 S64x64 S4x16x2048x64 [3] [1] [0, 1, 2] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S64x64_S4x16x2048x64_3_1_012_0_n_n : DotDims S4x16x2048x64 S64x64 S4x16x2048x64 where
  lhsContracting := [3]
  rhsContracting := [1]
  lhsNonContracting := [0, 1, 2]
  rhsNonContracting := [0]
  lhsBatch := []
  rhsBatch := []
  wf := dot_S4x16x2048x64_S64x64_S4x16x2048x64_3_1_012_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Spec.lean ====
/-
  Multi-head attention with a value residual, one output entry at a time, on the extended reals.

  The input x has shape [4, 2048, 1024]; its last axis is 16 heads of 64 features. Head h of batch b at time t is the
  row of 64 entries x (b, t, 64 h + d). The three weight matrices w (64 by 64) project such a row to the row
  j ↦ ∑ d, x (b, t, 64 h + d) · w (j, d). With Q, K, V the projections by wq, wk, wv, the score of time t against time
  s is the inner product of Q t and K s, scaled; the weights are exp (score − maximal score); the output entry
  (b, t, 64 h + j) is the weighted mean of the V s j plus V t j.

  Two arrangements of this computation are stated. In the first the inner product is DIVIDED by a number, the maximum
  is taken once more against the value the fold started from, and every weight is divided by the total of the weights
  (started from a second number) before the values are summed. In the second the inner product is MULTIPLIED by a
  number, and the weighted sum of the values is divided by the plain total afterwards.
-/
import Idealize.ShloMosaic.PureOps.Ideal.Laws
import Idealize.ShloMosaic.Lib.ValueIdx

open scoped BigOperators

noncomputable section

namespace Cert.Mha

open Idealize.ShloMosaic Idealize.ShloMosaic.ValueIdx

variable {ι κ : Type} [Fintype ι] [Fintype κ]

/-- The score of key k: the inner product divided by d. -/
def scoreDiv (d : EReal) (a : ι → EReal) (K : κ → ι → EReal) (k : κ) : EReal := Ideal.div (∑ e, a e * K k e) d

/-- The score of key k: the inner product multiplied by c. -/
def scoreMul (c : EReal) (a : ι → EReal) (K : κ → ι → EReal) (k : κ) : EReal := (∑ e, a e * K k e) * c

/-- Weights normalised first: the maximum (a fold from `lo`) taken once more against `lo`, every weight divided by the
    total started from `z`, then the values summed. -/
def softFirst (lo z : EReal) (σ : κ → EReal) (v : κ → EReal) : EReal :=
  ∑ k, Ideal.div (Ideal.exp (σ k - max lo (Finset.univ.fold max lo σ)))
      (z + ∑ k', Ideal.exp (σ k' - max lo (Finset.univ.fold max lo σ))) * v k

/-- Weights normalised last: the weighted sum of the values divided by the weights' total. -/
def softLast (lo : EReal) (σ : κ → EReal) (v : κ → EReal) : EReal :=
  Ideal.div (∑ k, Ideal.exp (σ k - Finset.univ.fold max lo σ) * v k) (∑ k, Ideal.exp (σ k - Finset.univ.fold max lo σ))

/-- The array index (b, t, 64 h + d). -/
def headIx (b : Fin 4) (t : Fin 2048) (h : Fin 16) (d : Fin 64) : (⟨3, ![4, 2048, 1024]⟩ : Shape).Idx :=
  ix3 b t ⟨h.val * 64 + d.val, by have := h.isLt; have := d.isLt; omega⟩

/-- Head h of batch b at time t, projected by w, at output feature j. -/
def proj (x : (⟨3, ![4, 2048, 1024]⟩ : Shape).Idx → EReal) (w : (⟨2, ![64, 64]⟩ : Shape).Idx → EReal)
    (b : Fin 4) (h : Fin 16) (t : Fin 2048) (j : Fin 64) : EReal :=
  ∑ d : Fin 64, x (headIx b t h d) * w (ix2 j d)

/-- The output entry (b, t, 64 h + j), weights normalised first, scores divided by `dv`. -/
def entryFirst (lo z dv : EReal) (x : (⟨3, ![4, 2048, 1024]⟩ : Shape).Idx → EReal)
    (wq wk wv : (⟨2, ![64, 64]⟩ : Shape).Idx → EReal) (b : Fin 4) (t : Fin 2048) (h : Fin 16) (j : Fin 64) : EReal :=
  softFirst lo z (scoreDiv dv (proj x wq b h t) (fun s => proj x wk b h s)) (fun s => proj x wv b h s j) + proj x wv b h t j

/-- The output entry (b, t, 64 h + j), weights normalised last, scores multiplied by `c`. -/
def entryLast (lo c : EReal) (x : (⟨3, ![4, 2048, 1024]⟩ : Shape).Idx → EReal)
    (wq wk wv : (⟨2, ![64, 64]⟩ : Shape).Idx → EReal) (b : Fin 4) (t : Fin 2048) (h : Fin 16) (j : Fin 64) : EReal :=
  softLast lo (scoreMul c (proj x wq b h t) (fun s => proj x wk b h s)) (fun s => proj x wv b h s j) + proj x wv b h t j

/-- The head of the feature coordinate e = 64 h + j. -/
def headOf (e : Fin 1024) : Fin 16 := ⟨e.val / 64, by have := e.isLt; omega⟩
/-- The feature inside its head of e = 64 h + j. -/
def featOf (e : Fin 1024) : Fin 64 := ⟨e.val % 64, by omega⟩

/-- The whole output array, weights normalised first: the first arrangement with the literal numbers of the plain
    program (−∞, 0, and 64 to the power one half). -/
def outFirst (x : (⟨3, ![4, 2048, 1024]⟩ : Shape).Idx → EReal) (wq wk wv : (⟨2, ![64, 64]⟩ : Shape).Idx → EReal) :
    (⟨3, ![4, 2048, 1024]⟩ : Shape).Idx → EReal := fun i =>
  entryFirst (Ideal.ofBits .f32 0xFF800000#32) (Ideal.ofBits .f32 0x00000000#32)
    (Ideal.pow (Ideal.ofBits .f32 0x42800000#32) (Ideal.ofBits .f32 0x3F000000#32)) x wq wk wv (i 0) (i 1) (headOf (i 2)) (featOf (i 2))

/-- The whole output array, weights normalised last: the second arrangement with the literal numbers of the tiled
    program (−∞ and one eighth). -/
def outLast (x : (⟨3, ![4, 2048, 1024]⟩ : Shape).Idx → EReal) (wq wk wv : (⟨2, ![64, 64]⟩ : Shape).Idx → EReal) :
    (⟨3, ![4, 2048, 1024]⟩ : Shape).Idx → EReal := fun i =>
  entryLast (Ideal.ofBits .f32 0xFF800000#32) (Ideal.ofBits .f32 0x3E000000#32) x wq wk wv (i 0) (i 1) (headOf (i 2)) (featOf (i 2))

end Cert.Mha

end
-- ==== Proof.RefValueProj.lean ====
/-
  The plain program's first stages, read at an index.

  The input x of shape [4, 2048, 1024] is reshaped to [4, 2048, 16, 64] and its two middle axes are exchanged: the
  entry (b, h, t, d) of the result is x (b, t, 64 h + d), because the flattened position of (b, t, h, d) in
  [4, 2048, 16, 64] is ((b · 2048 + t) · 16 + h) · 64 + d = (b · 2048 + t) · 1024 + (64 h + d). Each of the three
  contractions with a 64 by 64 weight matrix w over the last axis then has, at (b, h, t, j), the value
  ∑ d, x (b, t, 64 h + d) · w (j, d): the projection of head h of batch b at time t, at output feature j.
-/
import proofs.«149019_j15032385536440_2_alg».proof.Proof.Gen.ReferenceIdeal.Read
import proofs.«149019_j15032385536440_2_alg».proof.Proof.Spec

open scoped BigOperators

noncomputable section

namespace Cert.RefValue

open Cert.ReferenceIdeal Cert.ReferenceIdeal.Gen Cert.ReferenceIdeal.Read Idealize.ShloMosaic Idealize.ShloMosaic.ValueIdx
open Cert.Mha

/-- The head-split, transposed input at (b, h, t, d) is x (b, t, 64 h + d). -/
theorem heads_at (x : (⟨S4x2048x1024, .f32⟩ : BufTy).Contents (Elt Ideal)) (b : Fin 4) (h : Fin 16) (t : Fin 2048)
    (d : Fin 64) : val_main_v1 (F := Ideal) x (ix4 b h t d) = x (headIx b t h d) := by
  rw [val_main_v1_apply, val_main_v0_apply]
  refine congrArg x ?_
  have hb := b.isLt
  have hh := h.isLt
  have ht := t.isLt
  have hd := d.isLt
  funext a
  match a with
  | ⟨0, _⟩ =>
    exact Fin.ext (by
      show (((b.val * 2048 + t.val) * 16 + h.val) * 64 + d.val) / 2097152 = b.val
      omega)
  | ⟨1, _⟩ =>
    exact Fin.ext (by
      show (((b.val * 2048 + t.val) * 16 + h.val) * 64 + d.val) / 1024 % 2048 = t.val
      omega)
  | ⟨2, _⟩ =>
    exact Fin.ext (by
      show (((b.val * 2048 + t.val) * 16 + h.val) * 64 + d.val) % 1024 = h.val * 64 + d.val
      omega)

/-- The contraction of the head-split input with a weight matrix, at (b, h, t, j), is the projection of head h of
    batch b at time t at output feature j. -/
theorem proj_at (x : (⟨S4x2048x1024, .f32⟩ : BufTy).Contents (Elt Ideal)) (w : (⟨S64x64, .f32⟩ : BufTy).Contents (Elt Ideal))
    (b : Fin 4) (h : Fin 16) (t : Fin 2048) (j : Fin 64) :
    val_main_v2 (F := Ideal) x w (ix4 b h t j) = proj x w b h t j := by
  rw [val_main_v2_apply]
  unfold proj
  refine Finset.sum_congr rfl fun k _ => ?_
  have el : lidx_main_v2 (ix4 b h t j) k = ix4 b h t k := by
    funext a
    match a with
    | ⟨0, _⟩ => rfl
    | ⟨1, _⟩ => rfl
    | ⟨2, _⟩ => rfl
    | ⟨3, _⟩ => rfl
  have er : ridx_main_v2 (ix4 b h t j) k = ix2 j k := by
    funext a
    match a with
    | ⟨0, _⟩ => rfl
    | ⟨1, _⟩ => rfl
  rw [el, er, heads_at]

/-- The second contraction (the keys' weights) is the same function of its operands. -/
theorem projK_at (x : (⟨S4x2048x1024, .f32⟩ : BufTy).Contents (Elt Ideal)) (w : (⟨S64x64, .f32⟩ : BufTy).Contents (Elt Ideal))
    (b : Fin 4) (h : Fin 16) (t : Fin 2048) (j : Fin 64) :
    val_main_v3 (F := Ideal) x w (ix4 b h t j) = proj x w b h t j := proj_at x w b h t j

/-- The third contraction (the values' weights) is the same function of its operands. -/
theorem projV_at (x : (⟨S4x2048x1024, .f32⟩ : BufTy).Contents (Elt Ideal)) (w : (⟨S64x64, .f32⟩ : BufTy).Contents (Elt Ideal))
    (b : Fin 4) (h : Fin 16) (t : Fin 2048) (j : Fin 64) :
    val_main_v4 (F := Ideal) x w (ix4 b h t j) = proj x w b h t j := proj_at x w b h t j

end Cert.RefValue

end
-- ==== Proof.LibRowMax.lean ====
/-
  A maximum along one axis, read at an index of the result, on the extended reals.

  The vector unit's maximum along the last axis of a matrix [a, b], read at row p, is the fold of `max` from the
  accumulator's value over the row's entries (p, k), k : Fin b. The host's reduce by maximum over one axis is the same
  fold from its initial value's one element over that axis's coordinates. A fold of `max` is at least the value it
  starts from, so taking the maximum with that value once more changes nothing.
-/
import Idealize.ShloMosaic.PureOps.Ideal.Laws
import Idealize.ShloMosaic.Lib.ValueIdx

noncomputable section

namespace Cert.LibRowMax

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The vector unit's maximum along the rows of an [a, b] matrix, at row p: the fold of `max` from the accumulator's
    value over the row's entries. -/
theorem multiReduction_maximumf_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg ((Finset.univ : Finset (Fin b)).fold max (Ideal.ofBits φ acc)) (funext fun k => congrArg src (lift_row h p k)))

/-- The host's reduce by maximum over one axis, at a result index j: the fold of `max` from the initial value's one
    element over that axis's coordinates put back into j. -/
theorem hostReduce_maximumf_single {φ : FTy} {s t u : Shape} {a : Fin s.rank} (x : FVec Ideal s φ) (init : FVec Ideal u φ)
    (h' : s.ReducesTo [a] t) (h : s.Reduces [a] t) (hu : 0 < u.numel) (j : t.Idx) :
    Host.reduce (FloatOps.maximumf (F := Ideal) (φ := φ)) x init h' hu j
      = (Finset.univ : Finset (Fin (s.size a))).fold max (init (Shape.Idx.first hu)) (x ∘ h.lift j) :=
  Host.reduce_eq_fold_single _ x init h' h hu j

/-- A fold of `max` that starts from b is at least b: the maximum of b and the fold is the fold. -/
theorem max_fold_max_self {ι : Type} (s : Finset ι) (b : EReal) (f : ι → EReal) :
    max b (s.fold max b f) = s.fold max b f :=
  max_eq_right ((Finset.le_fold_max b).2 (Or.inl le_rfl))

end Cert.LibRowMax

end
-- ==== Proof.RefValueScore.lean ====
/-
  The plain program's scores and their row maximum, read at an index.

  The batched contraction of the queries with the keys has, at (b, h, t, s), the inner product of the query row
  (b, h, t) with the key row (b, h, s); it is divided by the scalar 64 to the power one half, broadcast to every index.
  The reduction by maximum along the last axis, started from −∞, is at (b, h, t) the fold of max from −∞ over the
  scores (b, h, t, s), s = 0 … 2047; the program then takes the maximum with −∞ once more.
-/
import proofs.«149019_j15032385536440_2_alg».proof.Proof.RefValueProj
import proofs.«149019_j15032385536440_2_alg».proof.Proof.LibRowMax

open scoped BigOperators

noncomputable section

namespace Cert.RefValue

open Cert.ReferenceIdeal Cert.ReferenceIdeal.Gen Cert.ReferenceIdeal.Read Idealize.ShloMosaic Idealize.ShloMosaic.ValueIdx
open Cert.Mha

/-- The divisor of the scores, at every index: 64 to the power one half. -/
theorem scale_at (i : S4x16x2048x2048.Idx) :
    val_main_v7 (F := Ideal) i = Ideal.pow (Ideal.ofBits .f32 0x42800000#32) (Ideal.ofBits .f32 0x3F000000#32) := by
  rw [val_main_v7_apply, val_main_v6_apply, val_main_cst_apply, val_main_cst_0_apply]
  rfl

/-- The scaled score of time t against time s, for head h of batch b. -/
theorem score_at (x : (⟨S4x2048x1024, .f32⟩ : BufTy).Contents (Elt Ideal)) (wq wk : (⟨S64x64, .f32⟩ : BufTy).Contents (Elt Ideal))
    (b : Fin 4) (h : Fin 16) (t s : Fin 2048) :
    val_main_v8 (F := Ideal) x wq wk (ix4 b h t s)
      = scoreDiv (Ideal.pow (Ideal.ofBits .f32 0x42800000#32) (Ideal.ofBits .f32 0x3F000000#32)) (proj x wq b h t)
          (fun s' => proj x wk b h s') s := by
  rw [val_main_v8_apply, val_main_v5_apply, scale_at, Ideal.hostDivf_def]
  unfold scoreDiv
  refine congrArg (fun z => Ideal.div z _) (Finset.sum_congr rfl fun k _ => ?_)
  have el : lidx_main_v5 (ix4 b h t s) k = ix4 b h t k := by
    funext a
    match a with
    | ⟨0, _⟩ => rfl
    | ⟨1, _⟩ => rfl
    | ⟨2, _⟩ => rfl
    | ⟨3, _⟩ => rfl
  have er : ridx_main_v5 (ix4 b h t s) k = ix4 b h s k := by
    funext a
    match a with
    | ⟨0, _⟩ => rfl
    | ⟨1, _⟩ => rfl
    | ⟨2, _⟩ => rfl
    | ⟨3, _⟩ => rfl
  rw [el, er, proj_at, projK_at]

/-- Over row (b, h, t) of a [4, 16, 2048, 2048] array, the index with coordinate s on the last axis is (b, h, t, s). -/
theorem lift_last (hr : S4x16x2048x2048.Reduces [3] S4x16x2048) (b : Fin 4) (h : Fin 16) (t s : Fin 2048) :
    hr.lift (ix3 b h t) s = ix4 b h t s := by
  funext c
  match c with
  | ⟨0, _⟩ => exact Fin.ext rfl
  | ⟨1, _⟩ => exact Fin.ext rfl
  | ⟨2, _⟩ => exact Fin.ext rfl
  | ⟨3, _⟩ => exact Fin.ext rfl

/-- The reduction by maximum along the last axis, at (b, h, t): the fold of max from −∞ over the row's scores. -/
theorem rowmax_at (x : (⟨S4x2048x1024, .f32⟩ : BufTy).Contents (Elt Ideal)) (wq wk : (⟨S64x64, .f32⟩ : BufTy).Contents (Elt Ideal))
    (b : Fin 4) (h : Fin 16) (t : Fin 2048) :
    val_main_v9 (F := Ideal) x wq wk (ix3 b h t)
      = (Finset.univ : Finset (Fin 2048)).fold max (Ideal.ofBits .f32 0xFF800000#32)
          (scoreDiv (Ideal.pow (Ideal.ofBits .f32 0x42800000#32) (Ideal.ofBits .f32 0x3F000000#32)) (proj x wq b h t)
            (fun s' => proj x wk b h s')) := by
  have hr : S4x16x2048x2048.Reduces [3] S4x16x2048 := by decide
  unfold val_main_v9
  refine (Cert.LibRowMax.hostReduce_maximumf_single (val_main_v8 (F := Ideal) x wq wk) (val_main_cst_1 (F := Ideal))
    reducesTo_S4x16x2048x2048_S4x16x2048_d3 hr h_S_ (ix3 b h t)).trans ?_
  refine congrArg ((Finset.univ : Finset (Fin 2048)).fold max (Ideal.ofBits .f32 0xFF800000#32)) (funext fun (s : Fin 2048) => ?_)
  exact (congrArg (val_main_v8 (F := Ideal) x wq wk) (lift_last hr b h t s)).trans (score_at x wq wk b h t s)

/-- The maximum the weights are taken against, at (b, h, t): the row's maximum, taken once more against −∞. -/
theorem max_at (x : (⟨S4x2048x1024, .f32⟩ : BufTy).Contents (Elt Ideal)) (wq wk : (⟨S64x64, .f32⟩ : BufTy).Contents (Elt Ideal))
    (b : Fin 4) (h : Fin 16) (t : Fin 2048) :
    val_main_v11 (F := Ideal) x wq wk (ix3 b h t)
      = max (Ideal.ofBits .f32 0xFF800000#32)
          ((Finset.univ : Finset (Fin 2048)).fold max (Ideal.ofBits .f32 0xFF800000#32)
            (scoreDiv (Ideal.pow (Ideal.ofBits .f32 0x42800000#32) (Ideal.ofBits .f32 0x3F000000#32)) (proj x wq b h t)
              (fun s' => proj x wk b h s'))) := by
  rw [val_main_v11_apply, val_main_v10_apply, val_main_cst_2_apply, rowmax_at]
  rfl

end Cert.RefValue

end
-- ==== Proof.RefValueSoft.lean ====
/-
  The plain program's weights, their total, and the weighted values, read at an index.

  With σ s the scaled score of time t against time s (head h of batch b) and M the row's maximum taken once more against
  −∞, the weight at (b, h, t, s) is exp (σ s − M); the reduction by addition along the last axis, started from zero, is
  at (b, h, t) zero plus the sum of the row's weights; every weight is divided by that total; the batched contraction
  with the values' projection sums, over s, the normalised weight times the value (b, h, s, j); the values' projection
  at (b, h, t, j) is added. That is the output entry with the weights normalised first.
-/
import proofs.«149019_j15032385536440_2_alg».proof.Proof.RefValueScore

open scoped BigOperators

noncomputable section

namespace Cert.RefValue

open Cert.ReferenceIdeal Cert.ReferenceIdeal.Gen Cert.ReferenceIdeal.Read Idealize.ShloMosaic Idealize.ShloMosaic.ValueIdx
open Cert.Mha

/-- The weight of time s for the query row (b, h, t): exp of the score minus the row's maximum. -/
theorem weight_at (x : (⟨S4x2048x1024, .f32⟩ : BufTy).Contents (Elt Ideal)) (wq wk : (⟨S64x64, .f32⟩ : BufTy).Contents (Elt Ideal))
    (b : Fin 4) (h : Fin 16) (t s : Fin 2048) :
    val_main_v15 (F := Ideal) x wq wk (ix4 b h t s)
      = Ideal.exp ((scoreDiv (Ideal.pow (Ideal.ofBits .f32 0x42800000#32) (Ideal.ofBits .f32 0x3F000000#32)) (proj x wq b h t) (fun s' => proj x wk b h s')) s
          - max (Ideal.ofBits .f32 0xFF800000#32) ((Finset.univ : Finset (Fin 2048)).fold max (Ideal.ofBits .f32 0xFF800000#32) (scoreDiv (Ideal.pow (Ideal.ofBits .f32 0x42800000#32) (Ideal.ofBits .f32 0x3F000000#32)) (proj x wq b h t) (fun s' => proj x wk b h s')))) := by
  have e : idx_main_v12 (idx_main_v13 (ix4 b h t s)) = ix3 b h t := by
    funext a
    match a with
    | ⟨0, _⟩ => rfl
    | ⟨1, _⟩ => rfl
    | ⟨2, _⟩ => rfl
  rw [val_main_v15_apply, val_main_v14_apply, val_main_v13_apply, val_main_v12_apply, e, max_at, score_at]
  rfl

/-- The total of the weights of the query row (b, h, t): zero plus their sum. -/
theorem total_at (x : (⟨S4x2048x1024, .f32⟩ : BufTy).Contents (Elt Ideal)) (wq wk : (⟨S64x64, .f32⟩ : BufTy).Contents (Elt Ideal))
    (b : Fin 4) (h : Fin 16) (t : Fin 2048) :
    val_main_v16 (F := Ideal) x wq wk (ix3 b h t)
      = (Ideal.ofBits .f32 0x00000000#32) + ∑ s : Fin 2048, Ideal.exp ((scoreDiv (Ideal.pow (Ideal.ofBits .f32 0x42800000#32) (Ideal.ofBits .f32 0x3F000000#32)) (proj x wq b h t) (fun s' => proj x wk b h s')) s
          - max (Ideal.ofBits .f32 0xFF800000#32) ((Finset.univ : Finset (Fin 2048)).fold max (Ideal.ofBits .f32 0xFF800000#32) (scoreDiv (Ideal.pow (Ideal.ofBits .f32 0x42800000#32) (Ideal.ofBits .f32 0x3F000000#32)) (proj x wq b h t) (fun s' => proj x wk b h s')))) := by
  rw [val_main_v16_apply, val_main_cst_3_apply]
  refine congrArg (fun z => FloatOps.ofBits (F := Ideal) .f32 0x00000000#32 + z) (Finset.sum_congr rfl fun k _ => ?_)
  have e : idx_main_v16 (ix3 b h t) k = ix4 b h t k := by
    funext a
    match a with
    | ⟨0, _⟩ => rfl
    | ⟨1, _⟩ => rfl
    | ⟨2, _⟩ => rfl
    | ⟨3, _⟩ => rfl
  rw [e, weight_at]

/-- The normalised weight of time s for the query row (b, h, t): the weight divided by the row's total. -/
theorem nweight_at (x : (⟨S4x2048x1024, .f32⟩ : BufTy).Contents (Elt Ideal)) (wq wk : (⟨S64x64, .f32⟩ : BufTy).Contents (Elt Ideal))
    (b : Fin 4) (h : Fin 16) (t s : Fin 2048) :
    val_main_v19 (F := Ideal) x wq wk (ix4 b h t s)
      = Ideal.div (Ideal.exp ((scoreDiv (Ideal.pow (Ideal.ofBits .f32 0x42800000#32) (Ideal.ofBits .f32 0x3F000000#32)) (proj x wq b h t) (fun s' => proj x wk b h s')) s
          - max (Ideal.ofBits .f32 0xFF800000#32) ((Finset.univ : Finset (Fin 2048)).fold max (Ideal.ofBits .f32 0xFF800000#32) (scoreDiv (Ideal.pow (Ideal.ofBits .f32 0x42800000#32) (Ideal.ofBits .f32 0x3F000000#32)) (proj x wq b h t) (fun s' => proj x wk b h s')))))
        ((Ideal.ofBits .f32 0x00000000#32) + ∑ s'' : Fin 2048, Ideal.exp ((scoreDiv (Ideal.pow (Ideal.ofBits .f32 0x42800000#32) (Ideal.ofBits .f32 0x3F000000#32)) (proj x wq b h t) (fun s' => proj x wk b h s')) s''
          - max (Ideal.ofBits .f32 0xFF800000#32) ((Finset.univ : Finset (Fin 2048)).fold max (Ideal.ofBits .f32 0xFF800000#32) (scoreDiv (Ideal.pow (Ideal.ofBits .f32 0x42800000#32) (Ideal.ofBits .f32 0x3F000000#32)) (proj x wq b h t) (fun s' => proj x wk b h s'))))) := by
  have e : idx_main_v17 (idx_main_v18 (ix4 b h t s)) = ix3 b h t := by
    funext a
    match a with
    | ⟨0, _⟩ => rfl
    | ⟨1, _⟩ => rfl
    | ⟨2, _⟩ => rfl
  rw [val_main_v19_apply, val_main_v18_apply, val_main_v17_apply, e, total_at, weight_at]
  rfl

/-- The output entry for head h of batch b at time t and feature j, in the head-major arrangement. -/
theorem entry_at (x : (⟨S4x2048x1024, .f32⟩ : BufTy).Contents (Elt Ideal)) (wq wk wv : (⟨S64x64, .f32⟩ : BufTy).Contents (Elt Ideal))
    (b : Fin 4) (h : Fin 16) (t : Fin 2048) (j : Fin 64) :
    val_main_v21 (F := Ideal) x wq wk wv (ix4 b h t j)
      = entryFirst (Ideal.ofBits .f32 0xFF800000#32) (Ideal.ofBits .f32 0x00000000#32)
          (Ideal.pow (Ideal.ofBits .f32 0x42800000#32) (Ideal.ofBits .f32 0x3F000000#32)) x wq wk wv b t h j := by
  rw [val_main_v21_apply, val_main_v20_apply, projV_at x wv b h t j]
  unfold entryFirst softFirst
  refine congrArg (fun z => z + proj x wv b h t j) (Finset.sum_congr rfl fun k _ => ?_)
  have el : lidx_main_v20 (ix4 b h t j) k = ix4 b h t k := by
    funext a
    match a with
    | ⟨0, _⟩ => rfl
    | ⟨1, _⟩ => rfl
    | ⟨2, _⟩ => rfl
    | ⟨3, _⟩ => rfl
  have er : ridx_main_v20 (ix4 b h t j) k = ix4 b h k j := by
    funext a
    match a with
    | ⟨0, _⟩ => rfl
    | ⟨1, _⟩ => rfl
    | ⟨2, _⟩ => rfl
    | ⟨3, _⟩ => rfl
  rw [el, er, nweight_at, projV_at]

end Cert.RefValue

end
-- ==== Proof.RefValue.lean ====
/-
  The plain program's result is the attention output with the weights normalised first.

  The program's last two stages exchange the two middle axes back and flatten [4, 2048, 16, 64] to [4, 2048, 1024]: the
  entry (b, t, e) of the result is the head-major entry (b, e / 64, t, e mod 64), because the flattened position
  (b · 2048 + t) · 1024 + e splits as ((b · 2048 + t) · 16 + e / 64) · 64 + e mod 64. With the head-major entries read
  stage by stage, the whole result is the first arrangement of the specification.
-/
import proofs.«149019_j15032385536440_2_alg».proof.Proof.RefValueSoft

open scoped BigOperators

noncomputable section

namespace Cert.RefValue

open Cert.ReferenceIdeal Cert.ReferenceIdeal.Gen Cert.ReferenceIdeal.Read Idealize.ShloMosaic Idealize.ShloMosaic.ValueIdx
open Cert.Mha

/-- The result's index (b, t, e) reads the head-major entry (b, e / 64, t, e mod 64). -/
theorem back_ix (i : S4x2048x1024.Idx) :
    idx_main_v22 (idx_main_v23 i) = ix4 (i 0) (headOf (i 2)) (i 1) (featOf (i 2)) := by
  have h0 : (i 0).val < 4 := (i 0).isLt
  have h1 : (i 1).val < 2048 := (i 1).isLt
  have h2 : (i 2).val < 1024 := (i 2).isLt
  funext a
  match a with
  | ⟨0, _⟩ =>
    exact Fin.ext (by
      show (((i 0).val * 2048 + (i 1).val) * 1024 + (i 2).val) / 2097152 = (i 0).val
      omega)
  | ⟨1, _⟩ =>
    exact Fin.ext (by
      show (((i 0).val * 2048 + (i 1).val) * 1024 + (i 2).val) / 64 % 16 = (i 2).val / 64
      omega)
  | ⟨2, _⟩ =>
    exact Fin.ext (by
      show (((i 0).val * 2048 + (i 1).val) * 1024 + (i 2).val) / 1024 % 2048 = (i 1).val
      omega)
  | ⟨3, _⟩ =>
    exact Fin.ext (by
      show (((i 0).val * 2048 + (i 1).val) * 1024 + (i 2).val) % 64 = (i 2).val % 64
      omega)

/-- The plain program's result, as one function of its four arguments: the first arrangement of the specification. -/
theorem ref_eq (x : (⟨S4x2048x1024, .f32⟩ : BufTy).Contents (Elt Ideal)) (wq wk wv : (⟨S64x64, .f32⟩ : BufTy).Contents (Elt Ideal)) :
    val_main_v23 (F := Ideal) x wq wk wv = outFirst x wq wk wv := by
  funext i
  exact (val_main_v23_apply x wq wk wv i).trans ((val_main_v22_apply x wq wk wv (idx_main_v23 i)).trans
    ((congrArg (val_main_v21 (F := Ideal) x wq wk wv) (back_ix i)).trans
      (entry_at x wq wk wv (i 0) (headOf (i 2)) (i 1) (featOf (i 2)))))

end Cert.RefValue

end
-- ==== Proof.LibAttn.lean ====
/-
  Softmax attention for ONE query row and ONE value column, on the extended reals.

  The scores of a query row `a` against the key rows `K k` are the inner products, scaled by `c`; the row's
  weights are `exp (score − max score)`; the result is the weighted mean of the values `v k`.
  Two arrangements of this computation are compared.  The first scales the query row BEFORE the inner product and
  multiplies the weighted SUM of the values by the reciprocal of the weights' total.  The second scales the inner
  product AFTERWARDS and divides every weight by the total before the values are summed.  For finite entries both are
  the same real number: the scale moves across the inner product by distributivity, the two maxima are the same
  (finite) number, every weight is a positive real, so the total is a nonzero real and division by it is
  multiplication by its reciprocal, which distributes over the sum.
-/
import Idealize.ShloMosaic.PureOps.Ideal.Laws

open scoped BigOperators

noncomputable section

namespace Cert.Attn

open Idealize.ShloMosaic

variable {ι κ : Type} [Fintype ι] [Fintype κ]

/-- The score of key `k`, the query row scaled first. -/
def scoreFirst (c : EReal) (a : ι → EReal) (K : κ → ι → EReal) (k : κ) : EReal := ∑ e, (a e * c) * K k e

/-- The score of key `k`, the inner product scaled afterwards. -/
def scoreLast (c : EReal) (a : ι → EReal) (K : κ → ι → EReal) (k : κ) : EReal := (∑ e, a e * K k e) * c

/-- Scale first; weighted sum of the values times the reciprocal of the weights' total. -/
def attnFirst (c : EReal) (a : ι → EReal) (K : κ → ι → EReal) (v : κ → EReal) : EReal :=
  (∑ k, Ideal.exp (scoreFirst c a K k - Finset.univ.fold max ⊥ (scoreFirst c a K)) * v k)
    * Ideal.div 1 (∑ k, Ideal.exp (scoreFirst c a K k - Finset.univ.fold max ⊥ (scoreFirst c a K)))

/-- Scale last; every weight divided by the total, then the values summed. -/
def attnLast (c : EReal) (a : ι → EReal) (K : κ → ι → EReal) (v : κ → EReal) : EReal :=
  ∑ k, Ideal.div (Ideal.exp (scoreLast c a K k - max ⊥ (Finset.univ.fold max ⊥ (scoreLast c a K))))
      (0 + ∑ k', Ideal.exp (scoreLast c a K k' - max ⊥ (Finset.univ.fold max ⊥ (scoreLast c a K)))) * v k

/-- One row of attention with the query row already scaled: the weighted sum of the values times the reciprocal of
    the weights' total. -/
def row (a : ι → EReal) (K : κ → ι → EReal) (v : κ → EReal) : EReal :=
  (∑ k, Ideal.exp ((∑ e, a e * K k e) - Finset.univ.fold max ⊥ (fun k' => ∑ e, a e * K k' e)) * v k)
    * Ideal.div 1 (∑ k, Ideal.exp ((∑ e, a e * K k e) - Finset.univ.fold max ⊥ (fun k' => ∑ e, a e * K k' e)))

/-- Scaling first is that row computation on the scaled query row. -/
theorem attnFirst_eq_row (c : EReal) (a : ι → EReal) (K : κ → ι → EReal) (v : κ → EReal) :
    attnFirst c a K v = row (fun e => a e * c) K v := rfl

/-- A finite sum of reals, each read as an extended real, is the real sum. -/
theorem coe_sum {α : Type} (s : Finset α) (f : α → ℝ) : ∑ i ∈ s, ((f i : ℝ) : EReal) = ((∑ i ∈ s, f i : ℝ) : EReal) := by
  classical
  refine Finset.induction_on s (by simp) (fun a s ha ih => ?_)
  rw [Finset.sum_insert ha, Finset.sum_insert ha, ih, EReal.coe_add]

/-- The maximum of finitely many reals over a nonempty index set, started from −∞, is a real. -/
theorem fold_max_real [Nonempty κ] (σ : κ → ℝ) :
    ∃ μ : ℝ, Finset.univ.fold max (⊥ : EReal) (fun k => ((σ k : ℝ) : EReal)) = (μ : EReal) := by
  have htop : Finset.univ.fold max (⊥ : EReal) (fun k => ((σ k : ℝ) : EReal)) ≠ ⊤ :=
    ne_of_lt ((Finset.fold_max_lt _).2 ⟨bot_lt_top, fun k _ => EReal.coe_lt_top _⟩)
  have hbot : Finset.univ.fold max (⊥ : EReal) (fun k => ((σ k : ℝ) : EReal)) ≠ ⊥ :=
    ne_of_gt ((Finset.lt_fold_max _).2 (Or.inr ⟨Classical.arbitrary κ, Finset.mem_univ _, EReal.bot_lt_coe _⟩))
  exact ⟨_, (EReal.coe_toReal htop hbot).symm⟩

/-- For real entries the two arrangements agree. -/
theorem attnFirst_eq_attnLast_coe [Nonempty κ] (c : ℝ) (a : ι → ℝ) (K : κ → ι → ℝ) (v : κ → ℝ) :
    attnFirst (c : EReal) (fun e => (a e : EReal)) (fun k e => (K k e : EReal)) (fun k => (v k : EReal))
      = attnLast (c : EReal) (fun e => (a e : EReal)) (fun k e => (K k e : EReal)) (fun k => (v k : EReal)) := by
  -- both scores are the real number σ k
  have hF : scoreFirst (c : EReal) (fun e => (a e : EReal)) (fun k e => (K k e : EReal))
      = fun k => (((∑ e, a e * K k e) * c : ℝ) : EReal) := by
    funext k
    unfold scoreFirst
    simp only [← EReal.coe_mul]
    rw [coe_sum, Finset.sum_mul]
    exact congrArg _ (Finset.sum_congr rfl fun e _ => by ring)
  have hL : scoreLast (c : EReal) (fun e => (a e : EReal)) (fun k e => (K k e : EReal))
      = fun k => (((∑ e, a e * K k e) * c : ℝ) : EReal) := by
    funext k
    unfold scoreLast
    simp only [← EReal.coe_mul]
    rw [coe_sum, ← EReal.coe_mul]
  obtain ⟨μ, hμ⟩ := fold_max_real (κ := κ) (fun k => (∑ e, a e * K k e) * c)
  unfold attnFirst attnLast
  rw [hF, hL, hμ, max_eq_right bot_le]
  -- the weights are positive reals, their total a nonzero real
  have hl : (∑ k : κ, Real.exp ((∑ e, a e * K k e) * c - μ)) ≠ 0 :=
    ne_of_gt (Finset.sum_pos (fun k _ => Real.exp_pos _) Finset.univ_nonempty)
  simp only [← EReal.coe_sub, Ideal.exp_coe, ← EReal.coe_mul, coe_sum, zero_add, Ideal.div_coe hl, one_mul]
  refine congrArg _ ?_
  rw [Finset.sum_mul]
  exact Finset.sum_congr rfl fun k _ => by ring

/-- For entries that are all finite the two arrangements agree. -/
theorem attnFirst_eq_attnLast [Nonempty κ] (c : EReal) (a : ι → EReal) (K : κ → ι → EReal) (v : κ → EReal)
    (hc : ∃ r : ℝ, c = r) (ha : ∀ e, ∃ r : ℝ, a e = r) (hK : ∀ k e, ∃ r : ℝ, K k e = r) (hv : ∀ k, ∃ r : ℝ, v k = r) :
    attnFirst c a K v = attnLast c a K v := by
  obtain ⟨c', rfl⟩ := hc
  choose a' ha' using ha
  choose K' hK' using hK
  choose v' hv' using hv
  obtain rfl : a = fun e => (a' e : EReal) := funext ha'
  obtain rfl : K = fun k e => (K' k e : EReal) := funext fun k => funext (hK' k)
  obtain rfl : v = fun k => (v' k : EReal) := funext hv'
  exact attnFirst_eq_attnLast_coe c' a' K' v'

end Cert.Attn

end
-- ==== Proof.Law.lean ====
/-
  The two arrangements of multi-head attention with a value residual agree on real inputs.

  For one query row a, key rows K k and a value column v, all real: dividing the inner product by 8 and multiplying it
  by one eighth give the same real score.  The maximum of finitely many real scores over a nonempty set of keys is a
  real, so taking it once more against −∞ changes nothing.  Every weight exp (score − maximum) is a positive real, so
  the weights' total is a nonzero real, adding it to 0 changes nothing, and dividing by it is multiplying by its
  reciprocal, which moves across the finite sum over the keys by distributivity.

  The literal numbers: the words of −∞, 0, 1/8, 64 and 1/2 are read off their bit fields, and 64 to the power one half
  is 8 because 64 = 8².  Every projected entry is a finite sum of products of reals, hence a real, so the law applies
  to every output entry; the value residual is the same term on both sides.
-/
import proofs.«149019_j15032385536440_2_alg».proof.Proof.Spec
import proofs.«149019_j15032385536440_2_alg».proof.Proof.LibAttn

open scoped BigOperators

noncomputable section

namespace Cert.Mha

open Idealize.ShloMosaic Idealize.ShloMosaic.ValueIdx

variable {ι κ : Type} [Fintype ι] [Fintype κ]

/-- For real entries, normalising the weights first with scores divided by 8 is normalising them last with scores
    multiplied by one eighth. -/
theorem softFirst_eq_softLast_coe [Nonempty κ] (a : ι → ℝ) (K : κ → ι → ℝ) (v : κ → ℝ) :
    softFirst ⊥ 0 (scoreDiv ((8 : ℝ) : EReal) (fun e => (a e : EReal)) (fun k e => (K k e : EReal))) (fun k => (v k : EReal))
      = softLast ⊥ (scoreMul ((1 / 8 : ℝ) : EReal) (fun e => (a e : EReal)) (fun k e => (K k e : EReal)))
          (fun k => (v k : EReal)) := by
  -- both scores are the real number (∑ e, a e * K k e) * (1 / 8)
  have hD : scoreDiv ((8 : ℝ) : EReal) (fun e => (a e : EReal)) (fun k e => (K k e : EReal))
      = fun k => (((∑ e, a e * K k e) * (1 / 8) : ℝ) : EReal) := by
    funext k
    unfold scoreDiv
    simp only [← EReal.coe_mul]
    rw [Cert.Attn.coe_sum, Ideal.div_coe (by norm_num : (8 : ℝ) ≠ 0), ← EReal.coe_mul]
  have hM : scoreMul ((1 / 8 : ℝ) : EReal) (fun e => (a e : EReal)) (fun k e => (K k e : EReal))
      = fun k => (((∑ e, a e * K k e) * (1 / 8) : ℝ) : EReal) := by
    funext k
    unfold scoreMul
    simp only [← EReal.coe_mul]
    rw [Cert.Attn.coe_sum, ← EReal.coe_mul]
  obtain ⟨μ, hμ⟩ := Cert.Attn.fold_max_real (κ := κ) (fun k => (∑ e, a e * K k e) * (1 / 8))
  unfold softFirst softLast
  rw [hD, hM, hμ, max_eq_right bot_le]
  -- the weights are positive reals, their total a nonzero real
  have hl : (∑ k : κ, Real.exp ((∑ e, a e * K k e) * (1 / 8) - μ)) ≠ 0 :=
    ne_of_gt (Finset.sum_pos (fun k _ => Real.exp_pos _) Finset.univ_nonempty)
  simp only [← EReal.coe_sub, Ideal.exp_coe, ← EReal.coe_mul, Cert.Attn.coe_sum, zero_add, Ideal.div_coe hl]
  refine congrArg _ ?_
  rw [Finset.sum_mul]
  exact Finset.sum_congr rfl fun k _ => by ring

/-- For entries that are all finite the two arrangements agree. -/
theorem softFirst_eq_softLast [Nonempty κ] (a : ι → EReal) (K : κ → ι → EReal) (v : κ → EReal)
    (ha : ∀ e, ∃ r : ℝ, a e = r) (hK : ∀ k e, ∃ r : ℝ, K k e = r) (hv : ∀ k, ∃ r : ℝ, v k = r) :
    softFirst ⊥ 0 (scoreDiv ((8 : ℝ) : EReal) a K) v = softLast ⊥ (scoreMul ((1 / 8 : ℝ) : EReal) a K) v := by
  choose a' ha' using ha
  choose K' hK' using hK
  choose v' hv' using hv
  obtain rfl : a = fun e => (a' e : EReal) := funext ha'
  obtain rfl : K = fun k e => (K' k e : EReal) := funext fun k => funext (hK' k)
  obtain rfl : v = fun k => (v' k : EReal) := funext hv'
  exact softFirst_eq_softLast_coe a' K' v'

/-! ### The literal numbers -/

/-- The word with sign 1, all exponent bits set and no fraction bit denotes −∞. -/
theorem ofBits_negInf : Ideal.ofBits .f32 0xFF800000#32 = (⊥ : EReal) := by
  simp [Ideal.ofBits, Ideal.ieee]

/-- The word with exponent field 124 and no fraction bit denotes 2⁻³. -/
theorem ofBits_eighth : Ideal.ofBits .f32 0x3E000000#32 = ((1 / 8 : ℝ) : EReal) := by
  simp [Ideal.ofBits, Ideal.ieee, -EReal.coe_mul]; norm_num

/-- The word with exponent field 133 and no fraction bit denotes 2⁶. -/
theorem ofBits_64 : Ideal.ofBits .f32 0x42800000#32 = ((64 : ℝ) : EReal) := by
  simp [Ideal.ofBits, Ideal.ieee, -EReal.coe_mul]; norm_num

/-- The word with exponent field 126 and no fraction bit denotes 2⁻¹. -/
theorem ofBits_half : Ideal.ofBits .f32 0x3F000000#32 = ((1 / 2 : ℝ) : EReal) := by
  simp [Ideal.ofBits, Ideal.ieee, -EReal.coe_mul]; norm_num

/-- 64 to the power one half is 8, since 64 = 8². -/
theorem pow_64_half : Ideal.pow (Ideal.ofBits .f32 0x42800000#32) (Ideal.ofBits .f32 0x3F000000#32) = ((8 : ℝ) : EReal) := by
  have h8 : Real.rpow 64 (1 / 2) = 8 := by
    rw [show (64 : ℝ) = 8 ^ (2 : ℝ) by norm_num, Real.rpow_eq_pow, ← Real.rpow_mul (by norm_num)]; norm_num
  rw [ofBits_64, ofBits_half, Ideal.pow_coe_coe, h8]

/-! ### The projections are real -/

/-- A projected entry of real inputs is a real: a finite sum of products of reals. -/
theorem proj_real (x : (⟨3, ![4, 2048, 1024]⟩ : Shape).Idx → EReal) (w : (⟨2, ![64, 64]⟩ : Shape).Idx → EReal)
    (hx : ∀ i, ∃ r : ℝ, x i = r) (hw : ∀ i, ∃ r : ℝ, w i = r) (b : Fin 4) (h : Fin 16) (t : Fin 2048) (j : Fin 64) :
    ∃ r : ℝ, proj x w b h t j = r := by
  choose x' hx' using hx
  choose w' hw' using hw
  refine ⟨∑ d : Fin 64, x' (headIx b t h d) * w' (ix2 j d), ?_⟩
  unfold proj
  simp only [hx', hw', ← EReal.coe_mul]
  exact Cert.Attn.coe_sum _ _

/-- On real inputs the two arrangements give the same output array. -/
theorem outFirst_eq_outLast (x : (⟨3, ![4, 2048, 1024]⟩ : Shape).Idx → EReal) (wq wk wv : (⟨2, ![64, 64]⟩ : Shape).Idx → EReal)
    (hx : ∀ i, ∃ r : ℝ, x i = r) (hq : ∀ i, ∃ r : ℝ, wq i = r) (hk : ∀ i, ∃ r : ℝ, wk i = r) (hv : ∀ i, ∃ r : ℝ, wv i = r) :
    Cert.Mha.outFirst x wq wk wv = Cert.Mha.outLast x wq wk wv := by
  funext i
  unfold outFirst outLast entryFirst entryLast
  rw [ofBits_negInf, Ideal.ofBits_zero_f32, pow_64_half, ofBits_eighth]
  refine congrArg (· + proj x wv (i 0) (headOf (i 2)) (i 1) (featOf (i 2))) ?_
  exact softFirst_eq_softLast _ _ _ (fun e => proj_real x wq hx hq _ _ _ e)
    (fun s e => proj_real x wk hx hk _ _ s e) (fun s => proj_real x wv hx hv _ _ s _)

end Cert.Mha

end
-- ==== Proof.LibFinite.lean ====
/-
  "Every entry is finite", read back from a printed precondition.

  A precondition `jnp.all (|x| < +∞)` prints as an all-reduction by `and`, from the constant 1, of the one-bit array of
  the comparisons `|x i| < +∞`, the bound broadcast from a scalar.  If the reduction is 1 then every comparison is 1; and
  an extended real whose absolute value is below +∞ is neither infinity, so it is a real.
-/
import Idealize.ShloMosaic.Lib.ReduceAll
import Idealize.ShloMosaic.Lib.ValueIdx
import Idealize.ShloMosaic.PureOps.Ideal.Laws

noncomputable section

namespace Cert.LibFinite

open Idealize.ShloMosaic

/-- The scalar shape has one index. -/
instance : Subsingleton (⟨0, ![]⟩ : Shape).Idx := ⟨fun a b => funext fun d => d.elim0⟩

/-- An extended real whose absolute value is below +∞ is a real. -/
theorem real_of_abs_lt (x : EReal) (h : Ideal.cmp .olt (max x (-x)) (Ideal.ofBits .f32 0x7F800000#32) = 1#1) :
    ∃ r : ℝ, x = r := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One all-reduction of the comparisons "|x i| < +∞" being 1 makes every entry of `x` a real. -/
theorem all_real_of_reduce {s : Shape} {axes : List (Fin s.rank)} (x : FVec Ideal s .f32)
    (hb : (⟨0, ![]⟩ : Shape).BroadcastsInDim s (![] : Fin 0 → Fin s.rank))
    (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : ∃ r : ℝ, x i = r :=
  real_of_abs_lt (x i) (Host.reduce_andi_all _ _ hr hu ValueIdx.ix0 e i)

end Cert.LibFinite

end
-- ==== Proof.Finite.lean ====
/-
  Every input entry is a real number, read back from the precondition.

  The precondition is the conjunction of four statements "all |x i| < +∞", one per input array, joined by three
  bitwise ands of one-bit words.  If the conjunction is 1 each conjunct is 1; each conjunct is an all-reduction of the
  comparisons |x i| < +∞, so every comparison is 1, and an extended real whose absolute value is below +∞ is a real.
-/
import proofs.«149019_j15032385536440_2_alg».proof.Proof.LibFinite
import proofs.«149019_j15032385536440_2_alg».proof.Pre_finite_inputs

noncomputable section

namespace Cert.MhaFinite

open Idealize.ShloMosaic

/-- Under the precondition every entry of the four input arrays is a real number. -/
theorem reals_of_pre [Cert.Pre_finite_inputs.Facts]
    (a0 : FVec Ideal Cert.Pre_finite_inputs.S4x2048x1024 .f32) (a1 a2 a3 : FVec Ideal Cert.Pre_finite_inputs.S64x64 .f32)
    (h : Cert.Pre_finite_inputs.fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  have e := congrFun h ValueIdx.ix0
  dsimp only [Cert.Pre_finite_inputs.fn, Cert.Pre_finite_inputs.fn_part1, andi] at e
  -- the outermost and joins the first three conjuncts with the fourth, and so on inwards
  obtain ⟨e012, e3⟩ := IntOp.andi_eq_one.1 e
  obtain ⟨e01, e2⟩ := IntOp.andi_eq_one.1 e012
  obtain ⟨e0, e1⟩ := IntOp.andi_eq_one.1 e01
  exact ⟨Cert.LibFinite.all_real_of_reduce a0 _ _ _ e0, Cert.LibFinite.all_real_of_reduce a1 _ _ _ e1,
    Cert.LibFinite.all_real_of_reduce a2 _ _ _ e2, Cert.LibFinite.all_real_of_reduce a3 _ _ _ e3⟩

end Cert.MhaFinite

end
-- ==== Proof.Assemble.lean ====
/-
  The certificate's five claims, each from its parts.

  The three frame claims: both tiled programs' argument arrays end as launched (the generated frame runs), and so do the
  plain program's (its generated run states that beside its result). The idealized tiled program is the tiled program's
  own text read over the extended reals, so nothing is to be preserved. The algebraic claim: from memories that agree on
  the four arguments x, wq, wk, wv, the tiled program's result array is the attention output with the weights normalised
  last (the hypothesis `hfinal`, proved where the tiled program's blocks are read), the plain program's result array is
  the attention output with the weights normalised first, and under the precondition every input entry is a real number,
  for which the two arrangements are the same array.
-/
import proofs.«149019_j15032385536440_2_alg».proof.Defs
import proofs.«149019_j15032385536440_2_alg».proof.Proof.Gen.Kernel.Frame
import proofs.«149019_j15032385536440_2_alg».proof.Proof.Gen.KernelIdeal.Value
import proofs.«149019_j15032385536440_2_alg».proof.Proof.Gen.ReferenceIdeal.Run
import proofs.«149019_j15032385536440_2_alg».proof.Proof.Gen.ReferenceIdeal.Read
import proofs.«149019_j15032385536440_2_alg».proof.Proof.Gen.Pre_finite_inputs
import proofs.«149019_j15032385536440_2_alg».proof.Proof.RefValue
import proofs.«149019_j15032385536440_2_alg».proof.Proof.Law
import proofs.«149019_j15032385536440_2_alg».proof.Proof.Finite

noncomputable section

namespace Cert.Proof.Parts

open Idealize.ShloMosaic Idealize.ShloMosaic.TcCoe Idealize.SL.Sem

/-- The tiled program runs and leaves its four arguments as launched. -/
theorem frame_k : Cert.frame_Kernel := fun m ρ _ => Cert.Kernel.Gen.frame m ρ

/-- The tiled program over the extended reals runs and leaves its four arguments as launched. -/
theorem frame_ki : Cert.frame_KernelIdeal := fun m ρ _ => Cert.KernelIdeal.Gen.frame m ρ

/-- The plain program runs and leaves its four arguments as launched: the second half of its run's statement. -/
theorem frame_ri : Cert.frame_ReferenceIdeal := fun m ρ _ =>
  (θ_run Cert.ReferenceIdeal.defs _ _).mono (fun _ h c => (h c).2) (Cert.ReferenceIdeal.Value.run (F := Ideal) m ρ)

/-- The idealized tiled program rewrites no operation of the tiled program. -/
theorem preserves : Cert.preserves_Kernel_KernelIdeal := trivial

/-- Both programs compute the same attention output on finite inputs, given that the tiled program's result array is
    the output with the weights normalised last. -/
theorem algebraic_of
    (hfinal : ∀ (m : (ℓ : Loc Cert.KernelIdeal.nD Cert.KernelIdeal.τ Cert.KernelIdeal.sig) → Buf (Elt Ideal) ℓ) (c : Dev Cert.KernelIdeal.nD),
      (Cert.KernelIdeal.Gen.dats m 0 c).arrAt 4 Cert.KernelIdeal.cfg0.N
        = Cert.Mha.outLast (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))) :
    Cert.algebraic_KernelIdeal_ReferenceIdeal := by
  intro m ρ m' ρ' hpre hagree
  refine ⟨fun c => Cert.Mha.outLast (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c => ⟨(h c).1.trans (hfinal m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.RefValue.ref_eq, (hagree c).1, (hagree c).2.1, (hagree c).2.2.1,
      (hagree c).2.2.2]
    obtain ⟨h0, h1, h2, h3⟩ := Cert.MhaFinite.reals_of_pre _ _ _ _ (hpre c)
    exact Cert.Mha.outFirst_eq_outLast _ _ _ _ h0 h1 h2 h3

end Cert.Proof.Parts

end
-- ==== Proof.LibRowSum.lean ====
/-
  A sum along the last axis of a matrix, read at a row.

  For x of shape [a, b], the kernel's lane reduction with neutral accumulator and the host's reduce with initial value
  init, both along axis 1, read at row p are the finite sum over k : Fin b of x (p, k) (the host's with init added in
  front): the source index over row p with coordinate k on the dropped axis is (p, k).
-/
import Idealize.ShloMosaic.PureOps.Ideal.Laws
import Idealize.ShloMosaic.Lib.ValueIdx

noncomputable section

namespace Cert.LibRowSum

open Idealize.ShloMosaic Idealize.ShloMosaic.ValueIdx

/-- Over row p of an [a, b] matrix, the source index with coordinate k on axis 1 is (p, k). -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- The kernel's lane sum of an [a, b] matrix at row p is the sum of the row's entries. -/
theorem multiReduction_add_row {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The host's sum of an [a, b] matrix along axis 1 at row p is the initial value plus the sum of the row's entries. -/
theorem hostReduceAdd_row {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.LibRowSum

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.LibColumn.lean ====
/-
  A column kept by a reduction ("keepdims"): the two layout steps that turn a vector of row results into
  a matrix with one value per row, each read at an index written by coordinates.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`, whatever the
    unit coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b, 1]` array cast to `[a, b]` (the kept unit axis dropped) reads, at `(i, j)`, the operand at
    `(i, j, 0)`: both indices have row-major position `i·b + j`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

end Idealize.ShloMosaic.ValueIdx
-- ==== Proof.Tile.lean ====
/-
  One query tile of the attention body, read at an entry.

  A tile takes 512 consecutive query rows (from row `off`) of one head's projected queries q, all 2048 rows of the
  head's projected keys k and values v, and the residual r. Its scores are the inner products of a query row with the
  key rows, times one eighth; the weights are exp (score − the row's maximal score); the tile's entry (i, j) is the
  weighted sum of the values' column j divided by the weights' total, plus the residual's entry (off + i, j).
  Two heads' tiles side by side make the 128-column slab the body stores.
-/
import proofs.«149019_j15032385536440_2_alg».proof.Proof.Gen.KernelIdeal.Skeleton
import proofs.«149019_j15032385536440_2_alg».proof.Proof.Spec
import proofs.«149019_j15032385536440_2_alg».proof.Proof.LibRowMax
import proofs.«149019_j15032385536440_2_alg».proof.Proof.LibRowSum
import proofs.«149019_j15032385536440_2_alg».proof.Proof.LibMatmul
import proofs.«149019_j15032385536440_2_alg».proof.Proof.LibColumn
import Idealize.ShloMosaic.Lib.ValueLayout
import Idealize.ShloMosaic.Lib.Pipeline.Value

open scoped BigOperators

noncomputable section

namespace Cert.MhaTile

open Cert.KernelIdeal Cert.KernelIdeal.Facts₀ Idealize.ShloMosaic Idealize.ShloMosaic.ValueIdx

local notation "dQK" => dot_S512x64_S64x2048_S512x2048_1_0_0_1_n_n
local notation "dPV" => dot_S512x2048_S2048x64_S512x64_1_0_0_1_n_n

/-! ## The two products' dimension numbers, by coordinates -/

theorem qk_l0 (i : S512x2048.Idx) (q : (dQK).contr.Idx) : (((dQK).lhsIdx i q) 0).val = (i 0).val := by
  unfold DotDims.lhsIdx
  rw [dif_neg (show ¬(0 : Fin S512x64.rank) ∈ (dQK).lhsBatch by decide), dif_pos (show (0 : Fin S512x64.rank) ∈ (dQK).lhsNonContracting by decide)]
  rfl
theorem qk_l1 (i : S512x2048.Idx) (q : (dQK).contr.Idx) : (((dQK).lhsIdx i q) 1).val = (q ⟨0, by decide⟩).val :=
  (dQK).lhsIdx_val_of_single rfl i q
theorem qk_r0 (i : S512x2048.Idx) (q : (dQK).contr.Idx) : (((dQK).rhsIdx i q) 0).val = (q ⟨0, by decide⟩).val :=
  (dQK).rhsIdx_val_of_single rfl i q
theorem qk_r1 (i : S512x2048.Idx) (q : (dQK).contr.Idx) : (((dQK).rhsIdx i q) 1).val = (i 1).val := by
  unfold DotDims.rhsIdx
  rw [dif_neg (show ¬(1 : Fin S64x2048.rank) ∈ (dQK).rhsBatch by decide), dif_pos (show (1 : Fin S64x2048.rank) ∈ (dQK).rhsNonContracting by decide)]
  rfl

theorem pv_l0 (i : S512x64.Idx) (q : (dPV).contr.Idx) : (((dPV).lhsIdx i q) 0).val = (i 0).val := by
  unfold DotDims.lhsIdx
  rw [dif_neg (show ¬(0 : Fin S512x2048.rank) ∈ (dPV).lhsBatch by decide), dif_pos (show (0 : Fin S512x2048.rank) ∈ (dPV).lhsNonContracting by decide)]
  rfl
theorem pv_l1 (i : S512x64.Idx) (q : (dPV).contr.Idx) : (((dPV).lhsIdx i q) 1).val = (q ⟨0, by decide⟩).val :=
  (dPV).lhsIdx_val_of_single rfl i q
theorem pv_r0 (i : S512x64.Idx) (q : (dPV).contr.Idx) : (((dPV).rhsIdx i q) 0).val = (q ⟨0, by decide⟩).val :=
  (dPV).rhsIdx_val_of_single rfl i q
theorem pv_r1 (i : S512x64.Idx) (q : (dPV).contr.Idx) : (((dPV).rhsIdx i q) 1).val = (i 1).val := by
  unfold DotDims.rhsIdx
  rw [dif_neg (show ¬(1 : Fin S2048x64.rank) ∈ (dPV).rhsBatch by decide), dif_pos (show (1 : Fin S2048x64.rank) ∈ (dPV).rhsNonContracting by decide)]
  rfl

/-! ## One head's tile -/

/-- The scaled scores of the tile's 512 query rows against the 2048 key rows. -/
def scores (off : Nat) (hs : S2048x64.Slices ![off, 0] S512x64) (q : FVec Ideal S2048x64 .f32) (k : FVec Ideal S2048x64 .bf16) :
    FVec Ideal S512x2048 .f32 :=
  mulf (matmul dQK none (truncf .bf16 (extractStridedSlice S512x64 ![off, 0] q hs) bitsLt_bf16_f32)
      (transpose S64x2048 [1, 0] k transposes_S2048x64_p1_0_S64x2048) (constant S512x2048 .f32 0x00000000#32))
    (broadcast S512x2048 (Scalar.ofBits .f32 0x3E000000#32))

/-- Each row's maximal score, kept as a column. -/
def rowMax (sc : FVec Ideal S512x2048 .f32) : FVec Ideal S512x1 .f32 :=
  shapeCast S512x1 (multiReduction .maximumf [1] S512 sc 0xFF800000#32 reduces_S512x2048_S512 (.inl rfl) rfl) shapeCasts_S512_S512x1

/-- The weights exp (score − the row's maximum). -/
def weights (sc : FVec Ideal S512x2048 .f32) : FVec Ideal S512x2048 .f32 :=
  exp (subf sc (broadcastTo S512x2048 (rowMax sc) broadcasts_S512x1_S512x2048))

/-- One head's tile from its weights: the weighted value sums divided by the weights' totals, plus the residual rows. -/
def headOut (off : Nat) (hs : S2048x64.Slices ![off, 0] S512x64) (p : FVec Ideal S512x2048 .f32)
    (v : FVec Ideal S2048x64 .bf16) (r : FVec Ideal S2048x64 .f32) : FVec Ideal S512x64 .f32 :=
  addf (divf (matmul dPV none (truncf .bf16 p bitsLt_bf16_f32) v (constant S512x64 .f32 0x00000000#32))
      (broadcastTo S512x64 (shapeCast S512x1 (multiReduction .add [1] S512 p 0x00000000#32 reduces_S512x2048_S512 (.inl rfl) rfl) shapeCasts_S512_S512x1)
        broadcasts_S512x1_S512x64))
    (extractStridedSlice S512x64 ![off, 0] r hs)

/-- One head's tile. -/
def headTile (off : Nat) (hs : S2048x64.Slices ![off, 0] S512x64) (q : FVec Ideal S2048x64 .f32) (k v : FVec Ideal S2048x64 .bf16)
    (r : FVec Ideal S2048x64 .f32) : FVec Ideal S512x64 .f32 :=
  headOut off hs (weights (scores off hs q k)) v r

/-- Two heads' tiles side by side, as the 1 × 512 × 128 slab the body stores. -/
def tile (off : Nat) (hs : S2048x64.Slices ![off, 0] S512x64) (q0 q1 : FVec Ideal S2048x64 .f32) (k0 k1 v0 v1 : FVec Ideal S2048x64 .bf16)
    (r0 r1 : FVec Ideal S2048x64 .f32) : FVec Ideal S1x512x128 .f32 :=
  shapeCast S1x512x128 (concatenate S512x128 1 [⟨S512x64, headTile off hs q0 k0 v0 r0⟩, ⟨S512x64, headTile off hs q1 k1 v1 r1⟩]
    concatenates_S512x64_S512x64_S512x128_d1) shapeCasts_S512x128_S1x512x128

/-! ## Read at an entry -/

/-- A scaled score: the inner product of query row off + i and key row s, times one eighth. -/
theorem scores_apply (off : Nat) (hs : S2048x64.Slices ![off, 0] S512x64) (q : FVec Ideal S2048x64 .f32) (k : FVec Ideal S2048x64 .bf16)
    (i : Fin 512) (s : Fin 2048) (ro : Fin 2048) (hro : ro.val = off + i.val) :
    scores off hs q k (ix2 i s)
      = Cert.Mha.scoreMul (Ideal.ofBits .f32 0x3E000000#32) (fun e : Fin 64 => q (ix2 ro e)) (fun (s : Fin 2048) (e : Fin 64) => k (ix2 s e)) s := by
  unfold scores Cert.Mha.scoreMul
  rw [mulf_apply]
  refine congrArg₂ (· * ·) ?_ rfl
  refine (Cert.LibMatmul.matmul_zero_ix2 dQK none rfl rfl qk_l0 qk_l1 qk_r0 qk_r1 _ _ (ix2 i s)).trans ?_
  refine Finset.sum_congr rfl fun e _ => ?_
  refine congrArg₂ (· * ·) ?_ ?_
  · exact slice2_axis0_apply off q hs i e ro hro
  · exact transpose_ix2_apply k transposes_S2048x64_p1_0_S64x2048 e s

/-- A row's maximal score: the fold of max from −∞ over the row. -/
theorem rowMax_apply (sc : FVec Ideal S512x2048 .f32) (i : Fin 512) (u : Fin 1) :
    rowMax sc (ix2 i u) = (Finset.univ : Finset (Fin 2048)).fold max (Ideal.ofBits .f32 0xFF800000#32) (fun s => sc (ix2 i s)) := by
  unfold rowMax
  refine (shapeCast_a_a1_apply _ shapeCasts_S512_S512x1 i u).trans ?_
  exact Cert.LibRowMax.multiReduction_maximumf_row sc 0xFF800000#32 reduces_S512x2048_S512 (.inl rfl) rfl i

/-- A weight. -/
theorem weights_apply (sc : FVec Ideal S512x2048 .f32) (i : Fin 512) (s : Fin 2048) :
    weights sc (ix2 i s)
      = Ideal.exp (sc (ix2 i s) - (Finset.univ : Finset (Fin 2048)).fold max (Ideal.ofBits .f32 0xFF800000#32) (fun s' => sc (ix2 i s'))) := by
  unfold weights
  show Ideal.exp (subf sc _ (ix2 i s)) = _
  rw [subf_apply, broadcastTo_a1_ab_apply, rowMax_apply]

/-- One head's tile from its weights, at (i, j). -/
theorem headOut_apply (off : Nat) (hs : S2048x64.Slices ![off, 0] S512x64) (p : FVec Ideal S512x2048 .f32)
    (v : FVec Ideal S2048x64 .bf16) (r : FVec Ideal S2048x64 .f32) (i : Fin 512) (j : Fin 64) (ro : Fin 2048) (hro : ro.val = off + i.val) :
    headOut off hs p v r (ix2 i j)
      = Ideal.div (∑ s : Fin 2048, p (ix2 i s) * v (ix2 s j)) (∑ s : Fin 2048, p (ix2 i s)) + r (ix2 ro j) := by
  unfold headOut
  rw [addf_apply, divf_apply]
  refine congrArg₂ (· + ·) (congrArg₂ Ideal.div ?_ ?_) (slice2_axis0_apply off r hs i j ro hro)
  · refine (Cert.LibMatmul.matmul_zero_ix2 dPV none rfl rfl pv_l0 pv_l1 pv_r0 pv_r1 _ _ (ix2 i j)).trans ?_
    rfl
  · refine (broadcastTo_a1_ab_apply _ broadcasts_S512x1_S512x64 i j).trans ?_
    refine (shapeCast_a_a1_apply _ shapeCasts_S512_S512x1 i 0).trans ?_
    exact Cert.LibRowSum.multiReduction_add_row p 0x00000000#32 reduces_S512x2048_S512 (.inl rfl) rfl i

/-- One head's tile at (i, j): the second arrangement's soft maximum of the scaled scores over the values' column j,
    plus the residual. -/
theorem headTile_apply (off : Nat) (hs : S2048x64.Slices ![off, 0] S512x64) (q : FVec Ideal S2048x64 .f32) (k v : FVec Ideal S2048x64 .bf16)
    (r : FVec Ideal S2048x64 .f32) (i : Fin 512) (j : Fin 64) (ro : Fin 2048) (hro : ro.val = off + i.val) :
    headTile off hs q k v r (ix2 i j)
      = Cert.Mha.softLast (Ideal.ofBits .f32 0xFF800000#32)
          (Cert.Mha.scoreMul (Ideal.ofBits .f32 0x3E000000#32) (fun e : Fin 64 => q (ix2 ro e)) (fun (s : Fin 2048) (e : Fin 64) => k (ix2 s e)))
          (fun s => v (ix2 s j)) + r (ix2 ro j) := by
  unfold headTile
  rw [headOut_apply off hs _ v r i j ro hro]
  unfold Cert.Mha.softLast
  simp only [weights_apply, scores_apply off hs q k i _ ro hro]

end Cert.MhaTile

end
-- ==== Proof.Block.lean ====
/-
  One block of the tiled computation, as a function of the block's loads.

  A block is 2048 rows of 128 features: two heads of 64 features side by side ("halves" 0 and 1). The three weight
  blocks are 128 × 128. Row r of the block against row n of a weight block is the sum over k of x0 (r, k) · W (n, k).
  Entry (r, 64 a + j) of the block's result is the second arrangement of attention (scores multiplied by one eighth,
  the weighted value sum divided by the weights' total afterwards) over these products restricted to half a.
  A weight block is block diagonal: two copies of a 64 × 64 matrix w on the diagonal, zero elsewhere.
-/
import proofs.«149019_j15032385536440_2_alg».proof.Proof.Spec

open scoped BigOperators

noncomputable section

namespace Cert.Mha

open Idealize.ShloMosaic Idealize.ShloMosaic.ValueIdx

/-- Column e of half a (0: the left 64 columns, 1: the right 64). -/
def lane (a : Fin 2) (e : Fin 64) : Fin 128 := ⟨a.val * 64 + e.val, by have := a.isLt; have := e.isLt; omega⟩

/-- Row r of the block against row n of a weight block. -/
def P (x0 : (⟨3, ![1, 2048, 128]⟩ : Shape).Idx → EReal) (W : (⟨2, ![128, 128]⟩ : Shape).Idx → EReal) (r : Fin 2048) (n : Fin 128) : EReal :=
  ∑ k : Fin 128, x0 (ix3 (0 : Fin 1) r k) * W (ix2 n k)

/-- Entry (r, 64 a + j) of the block's result. -/
def blockEntry (x0 : (⟨3, ![1, 2048, 128]⟩ : Shape).Idx → EReal) (W1 W2 W3 : (⟨2, ![128, 128]⟩ : Shape).Idx → EReal)
    (r : Fin 2048) (a : Fin 2) (j : Fin 64) : EReal :=
  softLast (Ideal.ofBits .f32 0xFF800000#32)
      (scoreMul (Ideal.ofBits .f32 0x3E000000#32) (fun e : Fin 64 => P x0 W1 r (lane a e)) (fun (s : Fin 2048) (e : Fin 64) => P x0 W2 s (lane a e)))
      (fun s => P x0 W3 s (lane a j))
    + P x0 W3 r (lane a j)

/-- The half of a column c of the block. -/
def halfOf (c : Fin 128) : Fin 2 := ⟨c.val / 64, by have := c.isLt; omega⟩
/-- The column inside its half. -/
def inHalf (c : Fin 128) : Fin 64 := ⟨c.val % 64, by omega⟩

/-- The block's result as an array over [1, 2048, 128]. -/
def blockFn (x0 : (⟨3, ![1, 2048, 128]⟩ : Shape).Idx → EReal) (W1 W2 W3 : (⟨2, ![128, 128]⟩ : Shape).Idx → EReal) :
    (⟨3, ![1, 2048, 128]⟩ : Shape).Idx → EReal := fun y => blockEntry x0 W1 W2 W3 (y 1) (halfOf (y 2)) (inHalf (y 2))

/-- Two copies of w on the diagonal of a 128 × 128 matrix, zero elsewhere. -/
def bdiag (w : (⟨2, ![64, 64]⟩ : Shape).Idx → EReal) : (⟨2, ![128, 128]⟩ : Shape).Idx → EReal := fun i =>
  if (i 0).val / 64 = (i 1).val / 64 then w (ix2 ⟨(i 0).val % 64, by omega⟩ ⟨(i 1).val % 64, by omega⟩) else 0

end Cert.Mha

end
-- ==== Proof.Proj.lean ====
/-
  The three projections of a block, read at an entry.

  A block x0 holds 2048 rows of 128 features (two heads side by side). Each of the three 128 × 128 weight blocks w
  multiplies it from the right, transposed: entry (r, n) of the product is the sum over k of x0 (r, k) · w (n, k).
  The left 64 columns of a product are the first head's, the right 64 the second's.
-/
import proofs.«149019_j15032385536440_2_alg».proof.Proof.Gen.KernelIdeal.Skeleton
import proofs.«149019_j15032385536440_2_alg».proof.Proof.LibMatmul
import proofs.«149019_j15032385536440_2_alg».proof.Proof.Block
import Idealize.ShloMosaic.Lib.ValueLayout
import Idealize.ShloMosaic.Lib.Pipeline.Value

open scoped BigOperators

noncomputable section

namespace Cert.MhaProj

open Cert.KernelIdeal Cert.KernelIdeal.Gen Idealize.ShloMosaic Idealize.ShloMosaic.ValueIdx Cert.Mha

local notation "dP" => dot_S2048x128_S128x128_S2048x128_1_0_0_1_n_n

theorem p_l0 (i : S2048x128.Idx) (q : (dP).contr.Idx) : (((dP).lhsIdx i q) 0).val = (i 0).val := by
  unfold DotDims.lhsIdx
  rw [dif_neg (show ¬(0 : Fin S2048x128.rank) ∈ (dP).lhsBatch by decide), dif_pos (show (0 : Fin S2048x128.rank) ∈ (dP).lhsNonContracting by decide)]
  rfl
theorem p_l1 (i : S2048x128.Idx) (q : (dP).contr.Idx) : (((dP).lhsIdx i q) 1).val = (q ⟨0, by decide⟩).val :=
  (dP).lhsIdx_val_of_single rfl i q
theorem p_r0 (i : S2048x128.Idx) (q : (dP).contr.Idx) : (((dP).rhsIdx i q) 0).val = (q ⟨0, by decide⟩).val :=
  (dP).rhsIdx_val_of_single rfl i q
theorem p_r1 (i : S2048x128.Idx) (q : (dP).contr.Idx) : (((dP).rhsIdx i q) 1).val = (i 1).val := by
  unfold DotDims.rhsIdx
  rw [dif_neg (show ¬(1 : Fin S128x128.rank) ∈ (dP).rhsBatch by decide), dif_pos (show (1 : Fin S128x128.rank) ∈ (dP).rhsNonContracting by decide)]
  rfl

/-- The product of the block with a transposed weight block, at (r, n). -/
theorem prod_apply {φ₁ φ₂ : FTy} (X : FVec Ideal S2048x128 φ₁) (W : FVec Ideal S128x128 φ₂) (x0 : Vec Ideal S1x2048x128 .f32) (w : Vec Ideal S128x128 .f32)
    (hX : ∀ r k, X (ix2 r k) = x0 (ix3 (0 : Fin 1) r k)) (hW : ∀ n k, W (ix2 n k) = w (ix2 n k)) (r : Fin 2048) (n : Fin 128) :
    matmul dP none X (transpose S128x128 [1, 0] W transposes_S128x128_p1_0_S128x128) (constant S2048x128 .f32 0x00000000#32) (ix2 r n) = P x0 w r n := by
  unfold P
  refine (Cert.LibMatmul.matmul_zero_ix2 dP none rfl rfl p_l0 p_l1 p_r0 p_r1 _ _ (ix2 r n)).trans ?_
  refine Finset.sum_congr rfl fun k _ => congrArg₂ (· * ·) (hX r k) ?_
  exact (transpose_ix2_apply W transposes_S128x128_p1_0_S128x128 k n).trans (hW n k)

theorem blk_apply (v0 : Vec Ideal S1x2048x128 .f32) (r : Fin 2048) (k : Fin 128) : k0_pay2 (F := Ideal) v0 (ix2 r k) = v0 (ix3 (0 : Fin 1) r k) :=
  shapeCast_1ab_ab_apply v0 shapeCasts_S1x2048x128_S2048x128 r k

theorem w_apply (w : Vec Ideal S128x128 .f32) (n k : Fin 128) : shapeCast S128x128 w shapeCasts_S128x128_S128x128 (ix2 n k) = w (ix2 n k) :=
  congrFun (shapeCast_self w shapeCasts_S128x128_S128x128) (ix2 n k)

/-- The query projection (both heads). -/
theorem pay4_apply (v0 : Vec Ideal S1x2048x128 .f32) (v3 : Vec Ideal S128x128 .f32) (r : Fin 2048) (n : Fin 128) :
    k0_pay4 (F := Ideal) v0 v3 (ix2 r n) = P v0 v3 r n := by
  unfold k0_pay4 k0_pay3
  exact prod_apply _ _ v0 v3 (fun r k => blk_apply v0 r k) (fun n k => w_apply v3 n k) r n

/-- The value projection (both heads). -/
theorem pay5_apply (v0 : Vec Ideal S1x2048x128 .f32) (v9 : Vec Ideal S128x128 .f32) (r : Fin 2048) (n : Fin 128) :
    k0_pay5 (F := Ideal) v0 v9 (ix2 r n) = P v0 v9 r n := by
  unfold k0_pay5
  exact prod_apply _ _ v0 v9 (fun r k => blk_apply v0 r k) (fun n k => w_apply v9 n k) r n

/-- The key projection (both heads). -/
theorem pay6_apply (v0 : Vec Ideal S1x2048x128 .f32) (v6 : Vec Ideal S128x128 .f32) (r : Fin 2048) (n : Fin 128) :
    k0_pay6 (F := Ideal) v0 v6 (ix2 r n) = P v0 v6 r n := by
  unfold k0_pay6 k0_pay3
  exact prod_apply _ _ v0 v6 (fun r k => blk_apply v0 r k) (fun n k => w_apply v6 n k) r n

theorem pay7_apply (v0 : Vec Ideal S1x2048x128 .f32) (v9 : Vec Ideal S128x128 .f32) (r : Fin 2048) (n : Fin 128) :
    k0_pay7 (F := Ideal) v0 v9 (ix2 r n) = P v0 v9 r n := by
  unfold k0_pay7
  exact pay5_apply v0 v9 r n

/-! ## The two heads' columns -/

theorem lane0 (e : Fin 64) : (lane 0 e).val = 0 + e.val := by show 0 * 64 + e.val = 0 + e.val; omega
theorem lane1 (e : Fin 64) : (lane 1 e).val = 64 + e.val := by show 1 * 64 + e.val = 64 + e.val; omega

theorem pay8_apply (v0 : Vec Ideal S1x2048x128 .f32) (v3 : Vec Ideal S128x128 .f32) (r : Fin 2048) (e : Fin 64) :
    k0_pay8 (F := Ideal) v0 v3 (ix2 r e) = P v0 v3 r (lane 0 e) := by
  unfold k0_pay8
  exact (slice2_axis1_apply 0 _ slices_S2048x128_o0_0_S2048x64 r e (lane 0 e) (lane0 e)).trans (pay4_apply v0 v3 r _)
theorem pay9_apply (v0 : Vec Ideal S1x2048x128 .f32) (v3 : Vec Ideal S128x128 .f32) (r : Fin 2048) (e : Fin 64) :
    k0_pay9 (F := Ideal) v0 v3 (ix2 r e) = P v0 v3 r (lane 1 e) := by
  unfold k0_pay9
  exact (slice2_axis1_apply 64 _ slices_S2048x128_o0_64_S2048x64 r e (lane 1 e) (lane1 e)).trans (pay4_apply v0 v3 r _)
theorem pay10_apply (v0 : Vec Ideal S1x2048x128 .f32) (v6 : Vec Ideal S128x128 .f32) (r : Fin 2048) (e : Fin 64) :
    k0_pay10 (F := Ideal) v0 v6 (ix2 r e) = P v0 v6 r (lane 0 e) := by
  unfold k0_pay10
  exact (slice2_axis1_apply 0 _ slices_S2048x128_o0_0_S2048x64 r e (lane 0 e) (lane0 e)).trans (pay6_apply v0 v6 r _)
theorem pay11_apply (v0 : Vec Ideal S1x2048x128 .f32) (v6 : Vec Ideal S128x128 .f32) (r : Fin 2048) (e : Fin 64) :
    k0_pay11 (F := Ideal) v0 v6 (ix2 r e) = P v0 v6 r (lane 1 e) := by
  unfold k0_pay11
  exact (slice2_axis1_apply 64 _ slices_S2048x128_o0_64_S2048x64 r e (lane 1 e) (lane1 e)).trans (pay6_apply v0 v6 r _)
theorem pay12_apply (v0 : Vec Ideal S1x2048x128 .f32) (v9 : Vec Ideal S128x128 .f32) (r : Fin 2048) (e : Fin 64) :
    k0_pay12 (F := Ideal) v0 v9 (ix2 r e) = P v0 v9 r (lane 0 e) := by
  unfold k0_pay12
  exact (slice2_axis1_apply 0 _ slices_S2048x128_o0_0_S2048x64 r e (lane 0 e) (lane0 e)).trans (pay7_apply v0 v9 r _)
theorem pay13_apply (v0 : Vec Ideal S1x2048x128 .f32) (v9 : Vec Ideal S128x128 .f32) (r : Fin 2048) (e : Fin 64) :
    k0_pay13 (F := Ideal) v0 v9 (ix2 r e) = P v0 v9 r (lane 1 e) := by
  unfold k0_pay13
  exact (slice2_axis1_apply 64 _ slices_S2048x128_o0_64_S2048x64 r e (lane 1 e) (lane1 e)).trans (pay7_apply v0 v9 r _)
theorem pay14_apply (v0 : Vec Ideal S1x2048x128 .f32) (v9 : Vec Ideal S128x128 .f32) (r : Fin 2048) (e : Fin 64) :
    k0_pay14 (F := Ideal) v0 v9 (ix2 r e) = P v0 v9 r (lane 0 e) := by
  unfold k0_pay14
  exact (slice2_axis1_apply 0 _ slices_S2048x128_o0_0_S2048x64 r e (lane 0 e) (lane0 e)).trans (pay5_apply v0 v9 r _)
theorem pay15_apply (v0 : Vec Ideal S1x2048x128 .f32) (v9 : Vec Ideal S128x128 .f32) (r : Fin 2048) (e : Fin 64) :
    k0_pay15 (F := Ideal) v0 v9 (ix2 r e) = P v0 v9 r (lane 1 e) := by
  unfold k0_pay15
  exact (slice2_axis1_apply 64 _ slices_S2048x128_o0_64_S2048x64 r e (lane 1 e) (lane1 e)).trans (pay5_apply v0 v9 r _)

end Cert.MhaProj

end
-- ==== Proof.Slab.lean ====
/-
  What the body leaves in the output block: the four stored slabs together are ONE function of the block's loads.

  The body stores four slabs of 512 rows (from rows 0, 512, 1024 and 1536), each two heads' tiles side by side. Column c
  of a slab belongs to half c / 64; its entry is that half's tile at column c mod 64. The tiles take the projected
  queries' rows off + i, so the slab stored from row off is rows off … off + 511 of one function of the whole block,
  and the four slabs tile the block.
-/
import proofs.«149019_j15032385536440_2_alg».proof.Proof.Gen.KernelIdeal.Frame
import proofs.«149019_j15032385536440_2_alg».proof.Proof.Tile
import proofs.«149019_j15032385536440_2_alg».proof.Proof.Proj

open scoped BigOperators

noncomputable section

namespace Cert.MhaSlab

open Cert.KernelIdeal Cert.KernelIdeal.Gen Idealize.ShloMosaic Idealize.ShloMosaic.ValueIdx Cert.Mha Cert.MhaTile Cert.MhaProj

/-- A slab at (i, c): the left head's tile for c < 64, the right head's otherwise, at column c mod 64. -/
theorem tile_apply (off : Nat) (hs : S2048x64.Slices ![off, 0] S512x64) (q0 q1 : FVec Ideal S2048x64 .f32) (k0 k1 v0 v1 : FVec Ideal S2048x64 .bf16)
    (r0 r1 : FVec Ideal S2048x64 .f32) (u : Fin 1) (i : Fin 512) (c : Fin 128) :
    tile off hs q0 q1 k0 k1 v0 v1 r0 r1 (ix3 u i c)
      = if c.val < 64 then headTile off hs q0 k0 v0 r0 (ix2 i (inHalf c)) else headTile off hs q1 k1 v1 r1 (ix2 i (inHalf c)) := by
  unfold tile
  refine (shapeCast_ab_1ab_apply _ shapeCasts_S512x128_S1x512x128 u i c).trans ?_
  split
  · next hc =>
    refine concatenate_pair_apply_left (t := S512x128) (s₁ := S512x64) (s₂ := S512x64) (1 : Fin 2) _ _ concatenates_S512x64_S512x64_S512x128_d1 (ix2 i c) rfl (ix2 i (inHalf c)) fun b => ?_
    match b with
    | ⟨0, _⟩ => rfl
    | ⟨1, _⟩ => exact Nat.mod_eq_of_lt hc
  · next hc =>
    refine concatenate_pair_apply_right (t := S512x128) (s₁ := S512x64) (s₂ := S512x64) (1 : Fin 2) _ _ concatenates_S512x64_S512x64_S512x128_d1 (ix2 i c) rfl rfl (ix2 i (inHalf c)) (fun b hb => ?_) ?_
    · match b with
      | ⟨0, _⟩ => rfl
      | ⟨1, _⟩ => exact absurd rfl hb
    · show c.val % 64 + 64 = c.val
      have := c.isLt; omega

/-- A slab of the body at (i, c), over the block's loads: the block's entry at row off + i. -/
theorem tile_entry (off : Nat) (hs : S2048x64.Slices ![off, 0] S512x64) (x0 : Vec Ideal S1x2048x128 .f32) (x1 x2 x3 : Vec Ideal S128x128 .f32)
    (u : Fin 1) (i : Fin 512) (c : Fin 128) (ro : Fin 2048) (hro : ro.val = off + i.val) :
    tile off hs (k0_pay8 (F := Ideal) x0 x1) (k0_pay9 (F := Ideal) x0 x1) (k0_pay10 (F := Ideal) x0 x2) (k0_pay11 (F := Ideal) x0 x2)
        (k0_pay12 (F := Ideal) x0 x3) (k0_pay13 (F := Ideal) x0 x3) (k0_pay14 (F := Ideal) x0 x3) (k0_pay15 (F := Ideal) x0 x3) (ix3 u i c)
      = blockEntry x0 x1 x2 x3 ro (halfOf c) (inHalf c) := by
  rw [tile_apply]
  unfold blockEntry
  split
  · next hc =>
    have ha : halfOf c = 0 := Fin.ext (Nat.div_eq_of_lt hc)
    rw [ha, headTile_apply off hs _ _ _ _ i (inHalf c) ro hro]
    simp only [pay8_apply, pay10_apply, pay12_apply, pay14_apply]
  · next hc =>
    have ha : halfOf c = 1 := Fin.ext (by show c.val / 64 = 1; have := c.isLt; omega)
    rw [ha, headTile_apply off hs _ _ _ _ i (inHalf c) ro hro]
    simp only [pay9_apply, pay11_apply, pay13_apply, pay15_apply]

/-! ## The four stored slabs are tiles -/

theorem piece0 (v0 : Vec Ideal S1x2048x128 .f32) (v3 v6 v9 : Vec Ideal S128x128 .f32) :
    k0_pay19 (F := Ideal) (k0_pay12 v0 v9) (k0_pay13 v0 v9) (k0_pay14 v0 v9) (k0_pay15 v0 v9) (k0_pay16 v0 v3 v6) (k0_pay17 v0 v3 v6) (k0_pay18 v0 v3 v6)
      = tile 0 slices_S2048x64_o0_0_S512x64 (k0_pay8 v0 v3) (k0_pay9 v0 v3) (k0_pay10 v0 v6) (k0_pay11 v0 v6) (k0_pay12 v0 v9) (k0_pay13 v0 v9) (k0_pay14 v0 v9) (k0_pay15 v0 v9) := rfl

theorem piece1 (v0 : Vec Ideal S1x2048x128 .f32) (v3 v6 v9 : Vec Ideal S128x128 .f32) :
    k0_pay24 (F := Ideal) (k0_pay12 v0 v9) (k0_pay13 v0 v9) (k0_pay14 v0 v9) (k0_pay15 v0 v9) (k0_pay20 (k0_pay8 v0 v3) (k0_pay10 v0 v6)) (k0_pay21 (k0_pay9 v0 v3) (k0_pay11 v0 v6))
        (k0_pay22 (k0_pay9 v0 v3) (k0_pay11 v0 v6)) (k0_pay23 (k0_pay8 v0 v3) (k0_pay10 v0 v6))
      = tile 512 slices_S2048x64_o512_0_S512x64 (k0_pay8 v0 v3) (k0_pay9 v0 v3) (k0_pay10 v0 v6) (k0_pay11 v0 v6) (k0_pay12 v0 v9) (k0_pay13 v0 v9) (k0_pay14 v0 v9) (k0_pay15 v0 v9) := rfl

theorem piece2 (v0 : Vec Ideal S1x2048x128 .f32) (v3 v6 v9 : Vec Ideal S128x128 .f32) :
    k0_pay27 (F := Ideal) (k0_pay12 v0 v9) (k0_pay13 v0 v9) (k0_pay14 v0 v9) (k0_pay15 v0 v9) (k0_pay25 (k0_pay8 v0 v3) (k0_pay10 v0 v6)) (k0_pay26 (k0_pay9 v0 v3) (k0_pay11 v0 v6))
      = tile 1024 slices_S2048x64_o1024_0_S512x64 (k0_pay8 v0 v3) (k0_pay9 v0 v3) (k0_pay10 v0 v6) (k0_pay11 v0 v6) (k0_pay12 v0 v9) (k0_pay13 v0 v9) (k0_pay14 v0 v9) (k0_pay15 v0 v9) := rfl

theorem piece3 (v0 : Vec Ideal S1x2048x128 .f32) (v3 v6 v9 : Vec Ideal S128x128 .f32) :
    k0_pay1 (F := Ideal) (k0_pay12 v0 v9) (k0_pay13 v0 v9) (k0_pay14 v0 v9) (k0_pay15 v0 v9) (k0_pay28 (k0_pay8 v0 v3) (k0_pay10 v0 v6)) (k0_pay29 (k0_pay9 v0 v3) (k0_pay11 v0 v6))
        (k0_pay30 (k0_pay8 v0 v3) (k0_pay10 v0 v6))
      = tile 1536 slices_S2048x64_o1536_0_S512x64 (k0_pay8 v0 v3) (k0_pay9 v0 v3) (k0_pay10 v0 v6) (k0_pay11 v0 v6) (k0_pay12 v0 v9) (k0_pay13 v0 v9) (k0_pay14 v0 v9) (k0_pay15 v0 v9) := rfl

end Cert.MhaSlab

end
-- ==== Proof.BlockLaw.lean ====
/-
  One block of the tiled computation is the second arrangement of attention on two heads of the whole input.

  A row of the block against row 64 a + e of a block-diagonal weight block: the sum over the 128 columns splits into the
  two halves of 64; on the half other than a every term is a product with 0, and on half a the weight entry is
  w (e, d).  So the product is the row's half a projected by w.  Block p of batch b holds columns 128 p … 128 p + 127 of
  the input, and (2 p + a) · 64 + d = 128 p + 64 a + d: half a of block p is head 2 p + a.  Hence entry (r, 64 a + j) of
  the block's result is the output entry (b, r, 64 (2 p + a) + j) of the second arrangement.  No finiteness is used:
  only x · 0 = 0, 0 + y = y and the splitting of a finite sum.
-/
import proofs.«149019_j15032385536440_2_alg».proof.Proof.Block

open scoped BigOperators

noncomputable section

namespace Cert.Mha

open Idealize.ShloMosaic Idealize.ShloMosaic.ValueIdx

/-- A sum over the 128 columns is the sum over the left half plus the sum over the right half. -/
theorem sum_halves (f : Fin 128 → EReal) :
    ∑ k : Fin 128, f k = ∑ d : Fin 64, f (lane 0 d) + ∑ d : Fin 64, f (lane 1 d) := by
  refine (Fin.sum_univ_add (a := 64) (b := 64) (fun k : Fin (64 + 64) => f k)).trans ?_
  congr 1 <;> exact Finset.sum_congr rfl fun d _ => congrArg f (Fin.ext (by simp [lane]))

/-- The block-diagonal matrix at row n, column k. -/
theorem bdiag_apply (w : (⟨2, ![64, 64]⟩ : Shape).Idx → EReal) (n k : Fin 128) :
    bdiag w (ix2 n k)
      = if n.val / 64 = k.val / 64 then w (ix2 ⟨n.val % 64, by omega⟩ ⟨k.val % 64, by omega⟩) else 0 := rfl

/-- The block-diagonal matrix at row e of half a, column d of half a': w (e, d) on the diagonal blocks, 0 off them. -/
theorem bdiag_lane (w : (⟨2, ![64, 64]⟩ : Shape).Idx → EReal) (a a' : Fin 2) (e d : Fin 64) :
    bdiag w (ix2 (lane a e) (lane a' d)) = if a = a' then w (ix2 e d) else 0 := by
  have he := e.isLt
  have hd := d.isLt
  have hw : ∀ p q : Fin 64, p = e → q = d → w (ix2 p q) = w (ix2 e d) := by rintro _ _ rfl rfl; rfl
  rw [bdiag_apply]
  by_cases h : a = a'
  · subst h
    rw [if_pos rfl, if_pos (by show (a.val * 64 + e.val) / 64 = (a.val * 64 + d.val) / 64; omega)]
    exact hw _ _ (Fin.ext (by show (a.val * 64 + e.val) % 64 = e.val; omega))
      (Fin.ext (by show (a.val * 64 + d.val) % 64 = d.val; omega))
  · have hne : a.val ≠ a'.val := fun h' => h (Fin.ext h')
    rw [if_neg h, if_neg (by show ¬ (a.val * 64 + e.val) / 64 = (a'.val * 64 + d.val) / 64; omega)]

/-- A row of the block against row 64 a + e of a block-diagonal weight block is the row's half a projected by w. -/
theorem P_bdiag (x0 : (⟨3, ![1, 2048, 128]⟩ : Shape).Idx → EReal) (w : (⟨2, ![64, 64]⟩ : Shape).Idx → EReal) (r : Fin 2048) (a : Fin 2) (e : Fin 64) :
    P x0 (bdiag w) r (lane a e) = ∑ d : Fin 64, x0 (ix3 (0 : Fin 1) r (lane a d)) * w (ix2 e d) := by
  unfold P
  rw [sum_halves]
  simp only [bdiag_lane]
  match a with
  | 0 => simp
  | 1 => simp

/-- Half a of block p of batch b, projected through the block-diagonal weights, is head 2 p + a projected by w. -/
theorem P_bdiag_proj (x : (⟨3, ![4, 2048, 1024]⟩ : Shape).Idx → EReal) (w : (⟨2, ![64, 64]⟩ : Shape).Idx → EReal)
    (b : Fin 4) (p : Fin 8) (x0 : (⟨3, ![1, 2048, 128]⟩ : Shape).Idx → EReal)
    (hx0 : ∀ (r : Fin 2048) (k : Fin 128), x0 (ix3 (0 : Fin 1) r k) = x (ix3 b r ⟨p.val * 128 + k.val, by have := p.isLt; have := k.isLt; omega⟩))
    (s : Fin 2048) (a : Fin 2) (e : Fin 64) :
    P x0 (bdiag w) s (lane a e)
      = proj x w b ⟨2 * p.val + a.val, by have := p.isLt; have := a.isLt; omega⟩ s e := by
  rw [P_bdiag]
  unfold proj
  refine Finset.sum_congr rfl fun d _ => ?_
  rw [hx0]
  refine congrArg (fun i => x i * w (ix2 e d)) ?_
  unfold headIx
  exact congrArg (ix3 b s) (Fin.ext (by show p.val * 128 + (a.val * 64 + d.val) = (2 * p.val + a.val) * 64 + d.val; omega))

/-- Entry (r, 64 a + j) of block p of batch b is the output entry of head 2 p + a at time r, feature j. -/
theorem blockEntry_eq (x : (⟨3, ![4, 2048, 1024]⟩ : Shape).Idx → EReal) (wq wk wv : (⟨2, ![64, 64]⟩ : Shape).Idx → EReal)
    (b : Fin 4) (p : Fin 8) (x0 : (⟨3, ![1, 2048, 128]⟩ : Shape).Idx → EReal)
    (hx0 : ∀ (r : Fin 2048) (k : Fin 128), x0 (ix3 (0 : Fin 1) r k) = x (ix3 b r ⟨p.val * 128 + k.val, by have := p.isLt; have := k.isLt; omega⟩))
    (r : Fin 2048) (a : Fin 2) (j : Fin 64) :
    blockEntry x0 (bdiag wq) (bdiag wk) (bdiag wv) r a j
      = entryLast (Ideal.ofBits .f32 0xFF800000#32) (Ideal.ofBits .f32 0x3E000000#32) x wq wk wv b r ⟨2 * p.val + a.val, by have := p.isLt; have := a.isLt; omega⟩ j := by
  unfold blockEntry entryLast
  simp only [P_bdiag_proj x _ b p x0 hx0]

/-- The head of column 128 p + c is 2 p + (c's half). -/
theorem headOf_block (p : Fin 8) (c : Fin 128) (e : Fin 1024) (he : e.val = p.val * 128 + c.val) :
    headOf e = ⟨2 * p.val + (halfOf c).val, by have := p.isLt; have := (halfOf c).isLt; omega⟩ :=
  Fin.ext (by show e.val / 64 = 2 * p.val + c.val / 64; omega)

/-- The feature inside its head of column 128 p + c is c's column inside its half. -/
theorem featOf_block (p : Fin 8) (c : Fin 128) (e : Fin 1024) (he : e.val = p.val * 128 + c.val) :
    featOf e = inHalf c :=
  Fin.ext (by show e.val % 64 = c.val % 64; omega)

/-- The second arrangement's output array at (b, r, 128 p + c). -/
theorem outLast_at (x : (⟨3, ![4, 2048, 1024]⟩ : Shape).Idx → EReal) (wq wk wv : (⟨2, ![64, 64]⟩ : Shape).Idx → EReal)
    (b : Fin 4) (r : Fin 2048) (p : Fin 8) (c : Fin 128) :
    outLast x wq wk wv (ix3 b r ⟨p.val * 128 + c.val, by have := p.isLt; have := c.isLt; omega⟩)
      = entryLast (Ideal.ofBits .f32 0xFF800000#32) (Ideal.ofBits .f32 0x3E000000#32) x wq wk wv b r ⟨2 * p.val + (halfOf c).val, by have := p.isLt; have := (halfOf c).isLt; omega⟩ (inHalf c) := by
  unfold outLast
  show entryLast _ _ x wq wk wv b r (headOf _) (featOf _) = _
  rw [headOf_block p c _ rfl, featOf_block p c _ rfl]

end Cert.Mha

end
-- ==== Proof.KernelValue.lean ====
/-
  The output array of the tiled program after its run, as one function of the argument arrays.

  At grid point (b, p) the body reads block (b, ·, 128 p …) of x — 2048 rows of the two heads 2 p and 2 p + 1 — and the
  three block-diagonal weight blocks, and stores four 512-row slabs that together are one function of those loads.
  Read through the block-diagonal weights that function is the second arrangement of attention for heads 2 p and
  2 p + 1 of batch b. Every array index (b, t, e) lies in exactly the block of point (b, e / 128), so the 32 points'
  blocks fill the array.
-/
import proofs.«149019_j15032385536440_2_alg».proof.Proof.Gen.KernelIdeal.Value
import proofs.«149019_j15032385536440_2_alg».proof.Proof.Slab
import proofs.«149019_j15032385536440_2_alg».proof.Proof.BlockLaw

open scoped BigOperators

noncomputable section

namespace Cert.MhaKernel

open Cert.KernelIdeal Cert.KernelIdeal.Gen Idealize.ShloMosaic Idealize.ShloMosaic.ValueIdx Idealize.ShloMosaic.TcCoe Idealize.SL.Sem
open Cert.Mha Cert.MhaTile Cert.MhaProj Cert.MhaSlab
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The four slabs are one function of the block's loads -/

/-- The slab stored from row `off` sits at rows off + i of the block. -/
theorem emb_slab (off : Nat) (inb : ∀ a, (![0, off, 0] : Fin 3 → Nat) a + S1x512x128.size a ≤ S1x2048x128.size a)
    (u : Fin 1) (i : Fin 512) (c : Fin 128) (hi : off + i.val < 2048) :
    (Rect.unit (s := S1x2048x128) ![0, off, 0] S1x512x128.size inb).emb (ix3 u i c) = ix3 (0 : Fin 1) ⟨off + i.val, hi⟩ c := by
  funext a
  match a with
  | ⟨0, _⟩ => exact Fin.ext (by show 0 + 1 * u.val = 0; omega)
  | ⟨1, _⟩ => exact Fin.ext (by show off + 1 * i.val = off + i.val; omega)
  | ⟨2, _⟩ => exact Fin.ext (by show 0 + 1 * c.val = c.val; omega)

/-- The slab stored from row `off` is the block's function at the rows it covers. -/
theorem slab_at (off : Nat) (hs : S2048x64.Slices ![off, 0] S512x64)
    (inb : ∀ a, (![0, off, 0] : Fin 3 → Nat) a + S1x512x128.size a ≤ S1x2048x128.size a)
    (x0 : Vec Ideal S1x2048x128 .f32) (x1 x2 x3 : Vec Ideal S128x128 .f32) (x : S1x512x128.Idx) :
    tile off hs (k0_pay8 (F := Ideal) x0 x1) (k0_pay9 (F := Ideal) x0 x1) (k0_pay10 (F := Ideal) x0 x2) (k0_pay11 (F := Ideal) x0 x2)
        (k0_pay12 (F := Ideal) x0 x3) (k0_pay13 (F := Ideal) x0 x3) (k0_pay14 (F := Ideal) x0 x3) (k0_pay15 (F := Ideal) x0 x3) x
      = blockFn x0 x1 x2 x3 ((Rect.unit (s := S1x2048x128) ![0, off, 0] S1x512x128.size inb).emb x) := by
  obtain ⟨u, i, c, rfl⟩ : ∃ (u : Fin 1) (i : Fin 512) (c : Fin 128), x = ix3 u i c := ⟨x 0, x 1, x 2, eq_ix3 x⟩
  have hb : off + 512 ≤ 2048 := inb 1
  have hi : off + i.val < 2048 := by have := i.isLt; omega
  rw [emb_slab off inb u i c hi]
  exact tile_entry off hs x0 x1 x2 x3 u i c ⟨off + i.val, hi⟩ rfl

/-- What the body leaves in the output block is the block's function of its loads. -/
theorem out_eq (x0 : Vec Ideal S1x2048x128 .f32) (x1 x2 x3 : Vec Ideal S128x128 .f32) :
    out0_4 (F := Ideal) x0 x1 x2 x3 = blockFn x0 x1 x2 x3 := by
  funext y
  unfold out0_4
  simp only [View.ld_unit_zero (S := S1x2048x128) hz3, View.ld_unit_zero (S := S128x128) hz2, piece0, piece1, piece2, piece3]
  refine View.canon_apply_of_pieces (Val := Elt Ideal) (S := S1x2048x128) (e := .f32) (blockFn x0 x1 x2 x3) _ ?_ y (cover0_4 _ _ _ _ y)
  intro p hp
  simp only [List.mem_cons, List.not_mem_nil, or_false] at hp
  rcases hp with rfl | rfl | rfl | rfl
  · exact fun x => slab_at 1536 slices_S2048x64_o1536_0_S512x64 inb_S1x2048x128_S1x512x128_0_1536_0 x0 x1 x2 x3 x
  · exact fun x => slab_at 1024 slices_S2048x64_o1024_0_S512x64 inb_S1x2048x128_S1x512x128_0_1024_0 x0 x1 x2 x3 x
  · exact fun x => slab_at 512 slices_S2048x64_o512_0_S512x64 inb_S1x2048x128_S1x512x128_0_512_0 x0 x1 x2 x3 x
  · exact fun x => slab_at 0 slices_S2048x64_o0_0_S512x64 inb_S1x2048x128_S1x512x128_0_0_0 x0 x1 x2 x3 x

/-! ## A block's function is the array's function on the block -/

/-- The block of point (b, p), over loads that are block (b, ·, 128 p …) of x and the block-diagonal weights, is the
    second arrangement's output at the array indices of that block. -/
theorem blockFn_arr (x : (⟨3, ![4, 2048, 1024]⟩ : Shape).Idx → EReal) (wq wk wv : (⟨2, ![64, 64]⟩ : Shape).Idx → EReal)
    (b : Fin 4) (p : Fin 8) (x0 : (⟨3, ![1, 2048, 128]⟩ : Shape).Idx → EReal) (W1 W2 W3 : (⟨2, ![128, 128]⟩ : Shape).Idx → EReal)
    (hx0 : ∀ (r : Fin 2048) (k : Fin 128), x0 (ix3 (0 : Fin 1) r k) = x (ix3 b r ⟨p.val * 128 + k.val, by have := p.isLt; have := k.isLt; omega⟩))
    (h1 : ∀ n k : Fin 128, W1 (ix2 n k) = bdiag wq (ix2 n k)) (h2 : ∀ n k : Fin 128, W2 (ix2 n k) = bdiag wk (ix2 n k))
    (h3 : ∀ n k : Fin 128, W3 (ix2 n k) = bdiag wv (ix2 n k))
    (y : (⟨3, ![1, 2048, 128]⟩ : Shape).Idx) (i : (⟨3, ![4, 2048, 1024]⟩ : Shape).Idx)
    (hi0 : (i 0).val = b.val) (hi1 : (i 1).val = (y 1).val) (hi2 : (i 2).val = p.val * 128 + (y 2).val) :
    blockFn x0 W1 W2 W3 y = outLast x wq wk wv i := by
  obtain rfl : W1 = bdiag wq := funext fun j => by rw [eq_ix2 j]; exact h1 _ _
  obtain rfl : W2 = bdiag wk := funext fun j => by rw [eq_ix2 j]; exact h2 _ _
  obtain rfl : W3 = bdiag wv := funext fun j => by rw [eq_ix2 j]; exact h3 _ _
  obtain ⟨u, r, c, rfl⟩ : ∃ (u : Fin 1) (r : Fin 2048) (c : Fin 128), y = ix3 u r c := ⟨y 0, y 1, y 2, eq_ix3 y⟩
  have hi : i = ix3 b r ⟨p.val * 128 + c.val, by have := p.isLt; have := c.isLt; omega⟩ := by
    rw [eq_ix3 i]
    exact congr (congr (congrArg ix3 (Fin.ext hi0)) (Fin.ext hi1)) (Fin.ext hi2)
  rw [hi, outLast_at]
  exact blockEntry_eq x wq wk wv b p x0 hx0 r (halfOf c) (inHalf c)

/-! ## The windows' blocks over the grid -/

/-- The printed index maps, decided over the 32 grid points: the input block of x moves with the output block, the
    weight blocks stay, and the output's block indices are a batch below 4 and a head pair below 8. -/
theorem idx_facts : ∀ t : Fin cfg0.N,
    win0_0.index t (0 : Fin 3) = win0_4.index t (0 : Fin 3) ∧ win0_0.index t (1 : Fin 3) = 0 ∧ win0_0.index t (2 : Fin 3) = win0_4.index t (2 : Fin 3)
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) < 4 ∧ win0_4.index t (1 : Fin 3) = 0 ∧ win0_4.index t (2 : Fin 3) < 8 :=
  (by decide +kernel : ∀ t : Fin grid0.N, _)

/-- Every (batch, head pair) is some point's output block. -/
theorem idx_onto : ∀ (b : Fin 4) (p : Fin 8), ∃ t : Fin cfg0.N, win0_4.index t = ![b.val, 0, p.val] :=
  (by decide +kernel : ∀ (b : Fin 4) (p : Fin 8), ∃ t : Fin grid0.N, win0_4.index t = ![b.val, 0, p.val])

variable (m : (ℓ : Loc nD τ sig) → Buf (Elt Ideal) ℓ)

/-- What point t writes back is its block of the second arrangement's output array, given that the three weight arrays
    the region finds are the block-diagonal matrices of the three weight arguments. -/
theorem flushed_eq (c : Dev nD)
    (hw1 : ∀ n k : Fin 128, V m c main_v3 (ix2 n k) = bdiag (m ((c : Thread nD τ).loc main_arg1)) (ix2 n k))
    (hw2 : ∀ n k : Fin 128, V m c main_v7 (ix2 n k) = bdiag (m ((c : Thread nD τ).loc main_arg2)) (ix2 n k))
    (hw3 : ∀ n k : Fin 128, V m c main_v11 (ix2 n k) = bdiag (m ((c : Thread nD τ).loc main_arg3)) (ix2 n k))
    (t : Fin cfg0.N) :
    (dats m 0 c).flushed 4 t = ((cfg0.win 4).blk t).view.read (Elt Ideal)
      (outLast (m ((c : Thread nD τ).loc main_arg0)) (m ((c : Thread nD τ).loc main_arg1)) (m ((c : Thread nD τ).loc main_arg2)) (m ((c : Thread nD τ).loc main_arg3))) := by
  rw [Cert.KernelIdeal.Value.flushed4]
  obtain ⟨e00, e01, e02, e10, e11, e20, e21, e30, e31, e40, e41, e42⟩ := idx_facts t
  funext y
  show out0_4 (iblk m c 0 t) (iblk m c 1 t) (iblk m c 2 t) (iblk m c 3 t) y = outLast _ _ _ _ (((cfg0.win 4).blk t).view.emb y)
  refine (congrFun (out_eq (iblk m c 0 t) (iblk m c 1 t) (iblk m c 2 t) (iblk m c 3 t)) y).trans ?_
  have hy0 : (y 0).val < 1 := (y 0).isLt
  have hy1 : (y 1).val < 2048 := (y 1).isLt
  have hy2 : (y 2).val < 128 := (y 2).isLt
  refine blockFn_arr _ _ _ _ ⟨win0_4.index t (0 : Fin 3), e40⟩ ⟨win0_4.index t (2 : Fin 3), e42⟩ _ _ _ _ ?_ ?_ ?_ ?_ y _ ?_ ?_ ?_
  · intro r k
    show V m c main_arg0 (((cfg0.win 0).blk t).view.emb (ix3 (0 : Fin 1) r k)) = _
    rw [V_main_arg0]
    refine congrArg _ (funext fun a => Fin.ext ?_)
    match a with
    | ⟨0, _⟩ => show win0_0.index t (0 : Fin 3) * 1 + 1 * 0 = win0_4.index t (0 : Fin 3); omega
    | ⟨1, _⟩ => show win0_0.index t (1 : Fin 3) * 2048 + 1 * r.val = r.val; omega
    | ⟨2, _⟩ => show win0_0.index t (2 : Fin 3) * 128 + 1 * k.val = win0_4.index t (2 : Fin 3) * 128 + k.val; omega
  · intro n k
    show V m c main_v3 (((cfg0.win 1).blk t).view.emb (ix2 n k)) = _
    have : ((cfg0.win 1).blk t).view.emb (ix2 n k) = ix2 n k := funext fun a => Fin.ext (by
      match a with
      | ⟨0, _⟩ => show win0_1.index t (0 : Fin 2) * 128 + 1 * n.val = n.val; omega
      | ⟨1, _⟩ => show win0_1.index t (1 : Fin 2) * 128 + 1 * k.val = k.val; omega)
    rw [this]
    exact hw1 n k
  · intro n k
    show V m c main_v7 (((cfg0.win 2).blk t).view.emb (ix2 n k)) = _
    have : ((cfg0.win 2).blk t).view.emb (ix2 n k) = ix2 n k := funext fun a => Fin.ext (by
      match a with
      | ⟨0, _⟩ => show win0_2.index t (0 : Fin 2) * 128 + 1 * n.val = n.val; omega
      | ⟨1, _⟩ => show win0_2.index t (1 : Fin 2) * 128 + 1 * k.val = k.val; omega)
    rw [this]
    exact hw2 n k
  · intro n k
    show V m c main_v11 (((cfg0.win 3).blk t).view.emb (ix2 n k)) = _
    have : ((cfg0.win 3).blk t).view.emb (ix2 n k) = ix2 n k := funext fun a => Fin.ext (by
      match a with
      | ⟨0, _⟩ => show win0_3.index t (0 : Fin 2) * 128 + 1 * n.val = n.val; omega
      | ⟨1, _⟩ => show win0_3.index t (1 : Fin 2) * 128 + 1 * k.val = k.val; omega)
    rw [this]
    exact hw3 n k
  · show win0_4.index t (0 : Fin 3) * 1 + 1 * (y 0).val = win0_4.index t (0 : Fin 3); omega
  · show win0_4.index t (1 : Fin 3) * 2048 + 1 * (y 1).val = (y 1).val; omega
  · show win0_4.index t (2 : Fin 3) * 128 + 1 * (y 2).val = win0_4.index t (2 : Fin 3) * 128 + (y 2).val; omega

/-- An index of the array is in point t's block iff each coordinate is in the block's range on its axis. -/
theorem mem_blk (t : Fin cfg0.N) (i : S4x2048x1024.Idx) :
    i ∈ ((cfg0.win 4).blk t).view.set ↔ ∀ a : Fin 3, win0_4.index t a * S1x2048x128.size a ≤ (i a).val ∧ (i a).val < win0_4.index t a * S1x2048x128.size a + S1x2048x128.size a := by
  show i ∈ ((View.whole main_v12).slice (win0_4.rect t)).set ↔ _
  rw [View.set_slice_whole, Rect.mem_set_unit]
  exact Iff.rfl

/-- The 32 points' blocks fill the array: index (b, t, e) is in the block of the point with batch b and head pair e / 128. -/
theorem cover (i : S4x2048x1024.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 1024 := (i 2).isLt
  obtain ⟨t, ht⟩ := idx_onto ⟨(i 0).val, hi0⟩ ⟨(i 2).val / 128, by omega⟩
  have q0 : win0_4.index t (0 : Fin 3) = (i 0).val := congrFun ht 0
  have q1 : win0_4.index t (1 : Fin 3) = 0 := congrFun ht 1
  have q2 : win0_4.index t (2 : Fin 3) = (i 2).val / 128 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 128 ≤ (i 2).val ∧ (i 2).val < win0_4.index t (2 : Fin 3) * 128 + 128; omega

/-- THE OUTPUT ARRAY after the run: the second arrangement's output of the argument arrays, given the weight arrays. -/
theorem final_of (c : Dev nD)
    (hw1 : ∀ n k : Fin 128, V m c main_v3 (ix2 n k) = bdiag (m ((c : Thread nD τ).loc main_arg1)) (ix2 n k))
    (hw2 : ∀ n k : Fin 128, V m c main_v7 (ix2 n k) = bdiag (m ((c : Thread nD τ).loc main_arg2)) (ix2 n k))
    (hw3 : ∀ n k : Fin 128, V m c main_v11 (ix2 n k) = bdiag (m ((c : Thread nD τ).loc main_arg3)) (ix2 n k)) :
    (dats m 0 c).arrAt 4 cfg0.N
      = outLast (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c hw1 hw2 hw3 t) cover

end Cert.MhaKernel

end
-- ==== Proof.LibJoin.lean ====
/-
  Two arrays joined along an axis, named as a function of the two pieces.

  The library's `concatenate` takes the list of pieces together with a proof about that list's shapes, so the pieces
  cannot be rewritten in place: the proof's statement mentions the list. For a literal list of two pieces the shapes
  do not depend on the pieces' contents; `join2` is the same array with the proof stated over the two shapes alone,
  and a goal that reaches a two-piece join goes on under it.
-/
import Idealize.ShloMosaic.Lib.StableHlo.Run

namespace Idealize.ShloMosaic

/-- The join of two arrays along axis `a`: entry `j` comes from the first piece while `j a` is inside its extent,
    from the second after that. -/
def join2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- A literal two-piece `concatenate` is that join. -/
theorem concatenate_two {α : Type} (t : Shape) (a : Fin t.rank) (s₁ s₂ : Shape) (x : s₁.Idx → α) (y : s₂.Idx → α)
    (h : Shape.Concatenates (List.map (fun p : (s : Shape) × (s.Idx → α) => p.1) [⟨s₁, x⟩, ⟨s₂, y⟩]) t a) :
    concatenate t a [⟨s₁, x⟩, ⟨s₂, y⟩] h = join2 t a s₁ s₂ (show Shape.Concatenates [s₁, s₂] t a from h) x y := rfl

namespace StableHlo

/-- What a literal list of host operations leaves in one buffer, as ONE rewriting pass that also goes on under a
    two-piece join. -/
macro "after_results_join" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_two]))

end StableHlo

end Idealize.ShloMosaic
-- ==== Proof.HostWeights.lean ====
/-
  The three weight blocks the tiled program builds before its region are block diagonal.

  Each 128 × 128 block is the join along the rows of two 64 × 128 strips; the upper strip is the join along the columns
  of the 64 × 64 matrix w and a 64 × 64 array of zeros, the lower strip the join of the zeros and w.  An entry (n, k) of
  a join along an axis comes from the first piece while its coordinate on that axis is below 64, from the second piece,
  at that coordinate less 64, afterwards.  So entry (n, k) is w (n, k) when n, k < 64, w (n − 64, k − 64) when
  n, k ≥ 64, and a zero otherwise: w (n mod 64, k mod 64) when n / 64 = k / 64, else 0.
-/
import proofs.«149019_j15032385536440_2_alg».proof.Proof.Gen.KernelIdeal.Frame
import proofs.«149019_j15032385536440_2_alg».proof.Proof.Block
import proofs.«149019_j15032385536440_2_alg».proof.Proof.LibJoin
import Idealize.ShloMosaic.Lib.Pipeline.Value

noncomputable section

namespace Cert.MhaHost

open Idealize.ShloMosaic Idealize.ShloMosaic.ValueIdx Idealize.ShloMosaic.TcCoe Idealize.ShloMosaic.StableHlo
open Idealize.SL.Sem
open Cert.KernelIdeal Cert.KernelIdeal.Gen

section Join
variable {α : Type}

/-- A join along the columns of two 64 × 64 pieces, at a column of the left half: the first piece there. -/
theorem joinCols_left (h : Shape.Concatenates [(⟨2, ![64, 64]⟩ : Shape), ⟨2, ![64, 64]⟩] ⟨2, ![64, 128]⟩ 1)
    (x y : (⟨2, ![64, 64]⟩ : Shape).Idx → α) (n : Fin 64) (k : Fin 128) (hk : k.val < 64) :
    join2 ⟨2, ![64, 128]⟩ 1 ⟨2, ![64, 64]⟩ ⟨2, ![64, 64]⟩ h x y (ix2 n k) = x (ix2 n ⟨k.val, hk⟩) :=
  concatenate_pair_apply_left (t := ⟨2, ![64, 128]⟩) (s₁ := ⟨2, ![64, 64]⟩) (s₂ := ⟨2, ![64, 64]⟩) (1 : Fin 2) x y h
    (ix2 n k) rfl (ix2 n ⟨k.val, hk⟩) (by
      intro b
      match b with
      | ⟨0, _⟩ => rfl
      | ⟨1, _⟩ => rfl)

/-- A join along the columns of two 64 × 64 pieces, at a column of the right half: the second piece, 64 columns
    to the left. -/
theorem joinCols_right (h : Shape.Concatenates [(⟨2, ![64, 64]⟩ : Shape), ⟨2, ![64, 64]⟩] ⟨2, ![64, 128]⟩ 1)
    (x y : (⟨2, ![64, 64]⟩ : Shape).Idx → α) (n : Fin 64) (k : Fin 128) (hk : 64 ≤ k.val) :
    join2 ⟨2, ![64, 128]⟩ 1 ⟨2, ![64, 64]⟩ ⟨2, ![64, 64]⟩ h x y (ix2 n k)
      = y (ix2 n ⟨k.val - 64, by have := k.isLt; omega⟩) :=
  concatenate_pair_apply_right (t := ⟨2, ![64, 128]⟩) (s₁ := ⟨2, ![64, 64]⟩) (s₂ := ⟨2, ![64, 64]⟩) (1 : Fin 2) x y h
    (ix2 n k) rfl rfl (ix2 n ⟨k.val - 64, by have := k.isLt; omega⟩) (by
      intro b hb
      match b with
      | ⟨0, _⟩ => rfl
      | ⟨1, _⟩ => exact absurd rfl hb) (by show (k.val - 64) + 64 = k.val; omega)

/-- A join along the rows of two 64 × 128 pieces, at a row of the upper half: the first piece there. -/
theorem joinRows_left (h : Shape.Concatenates [(⟨2, ![64, 128]⟩ : Shape), ⟨2, ![64, 128]⟩] ⟨2, ![128, 128]⟩ 0)
    (x y : (⟨2, ![64, 128]⟩ : Shape).Idx → α) (n k : Fin 128) (hn : n.val < 64) :
    join2 ⟨2, ![128, 128]⟩ 0 ⟨2, ![64, 128]⟩ ⟨2, ![64, 128]⟩ h x y (ix2 n k) = x (ix2 ⟨n.val, hn⟩ k) :=
  concatenate_pair_apply_left (t := ⟨2, ![128, 128]⟩) (s₁ := ⟨2, ![64, 128]⟩) (s₂ := ⟨2, ![64, 128]⟩) (0 : Fin 2) x y h
    (ix2 n k) rfl (ix2 ⟨n.val, hn⟩ k) (by
      intro b
      match b with
      | ⟨0, _⟩ => rfl
      | ⟨1, _⟩ => rfl)

/-- A join along the rows of two 64 × 128 pieces, at a row of the lower half: the second piece, 64 rows up. -/
theorem joinRows_right (h : Shape.Concatenates [(⟨2, ![64, 128]⟩ : Shape), ⟨2, ![64, 128]⟩] ⟨2, ![128, 128]⟩ 0)
    (x y : (⟨2, ![64, 128]⟩ : Shape).Idx → α) (n k : Fin 128) (hn : 64 ≤ n.val) :
    join2 ⟨2, ![128, 128]⟩ 0 ⟨2, ![64, 128]⟩ ⟨2, ![64, 128]⟩ h x y (ix2 n k)
      = y (ix2 ⟨n.val - 64, by have := n.isLt; omega⟩ k) :=
  concatenate_pair_apply_right (t := ⟨2, ![128, 128]⟩) (s₁ := ⟨2, ![64, 128]⟩) (s₂ := ⟨2, ![64, 128]⟩) (0 : Fin 2) x y h
    (ix2 n k) rfl rfl (ix2 ⟨n.val - 64, by have := n.isLt; omega⟩ k) (by
      intro b hb
      match b with
      | ⟨0, _⟩ => exact absurd rfl hb
      | ⟨1, _⟩ => rfl) (by show (n.val - 64) + 64 = n.val; omega)

end Join

/-- The strip [w | 0] over the strip [0 | w] is the block-diagonal matrix of w. -/
theorem join_bdiag (h0 : Shape.Concatenates [(⟨2, ![64, 128]⟩ : Shape), ⟨2, ![64, 128]⟩] ⟨2, ![128, 128]⟩ 0)
    (h1 : Shape.Concatenates [(⟨2, ![64, 64]⟩ : Shape), ⟨2, ![64, 64]⟩] ⟨2, ![64, 128]⟩ 1)
    (w z : (⟨2, ![64, 64]⟩ : Shape).Idx → EReal) (hz : ∀ i, z i = 0) :
    join2 ⟨2, ![128, 128]⟩ 0 ⟨2, ![64, 128]⟩ ⟨2, ![64, 128]⟩ h0
        (join2 ⟨2, ![64, 128]⟩ 1 ⟨2, ![64, 64]⟩ ⟨2, ![64, 64]⟩ h1 w z)
        (join2 ⟨2, ![64, 128]⟩ 1 ⟨2, ![64, 64]⟩ ⟨2, ![64, 64]⟩ h1 z w)
      = Cert.Mha.bdiag w := by
  funext i
  obtain ⟨n, k, rfl⟩ : ∃ (n k : Fin 128), i = ix2 n k := ⟨i 0, i 1, eq_ix2 i⟩
  have hn := n.isLt
  have hk := k.isLt
  have hw : ∀ p q p' q' : Fin 64, p = p' → q = q' → w (ix2 p q) = w (ix2 p' q') := by rintro _ _ _ _ rfl rfl; rfl
  show _ = if n.val / 64 = k.val / 64 then w (ix2 ⟨n.val % 64, _⟩ ⟨k.val % 64, _⟩) else 0
  by_cases hn' : n.val < 64
  · rw [joinRows_left h0 _ _ n k hn']
    by_cases hk' : k.val < 64
    · rw [joinCols_left h1 _ _ _ k hk', if_pos (by omega)]
      exact hw _ _ _ _ (Fin.ext (by show n.val = n.val % 64; omega)) (Fin.ext (by show k.val = k.val % 64; omega))
    · rw [joinCols_right h1 _ _ _ k (by omega), hz, if_neg (by omega)]
  · rw [joinRows_right h0 _ _ n k (by omega)]
    by_cases hk' : k.val < 64
    · rw [joinCols_left h1 _ _ _ k hk', hz, if_neg (by omega)]
    · rw [joinCols_right h1 _ _ _ k (by omega), if_pos (by omega)]
      exact hw _ _ _ _ (Fin.ext (by show n.val - 64 = n.val % 64; omega)) (Fin.ext (by show k.val - 64 = k.val % 64; omega))

/-- The constant 0 spread over a 64 × 64 array is 0 at every entry. -/
theorem zeros_apply (h : (⟨0, ![]⟩ : Shape).BroadcastsInDim ⟨2, ![64, 64]⟩ (![] : Fin 0 → Fin 2))
    (i : (⟨2, ![64, 64]⟩ : Shape).Idx) :
    broadcastInDim ⟨2, ![64, 64]⟩ ![] h (constant (F := Ideal) ⟨0, ![]⟩ .f32 0x00000000#32) i = (0 : EReal) := by
  show Ideal.ofBits .f32 0x00000000#32 = 0
  exact Ideal.ofBits_zero_f32

variable (m : (ℓ : Loc nD τ sig) → Buf (Elt Ideal) ℓ) (c : Dev nD)

/-- The first weight block as the region finds it: the block-diagonal matrix of the second argument. -/
theorem V_main_v3 : (Gen.V m c main_v3 : S128x128.Idx → EReal)
    = Cert.Mha.bdiag (m ((c : Thread nD τ).loc main_arg1) : S64x64.Idx → EReal) := by
  dsimp only [Gen.V, Gen.hostOps0]
  after_results_join
  exact join_bdiag _ _ _ _ (zeros_apply _)

/-- The second weight block as the region finds it: the block-diagonal matrix of the third argument. -/
theorem V_main_v7 : (Gen.V m c main_v7 : S128x128.Idx → EReal)
    = Cert.Mha.bdiag (m ((c : Thread nD τ).loc main_arg2) : S64x64.Idx → EReal) := by
  dsimp only [Gen.V, Gen.hostOps0]
  after_results_join
  exact join_bdiag _ _ _ _ (zeros_apply _)

/-- The third weight block as the region finds it: the block-diagonal matrix of the fourth argument. -/
theorem V_main_v11 : (Gen.V m c main_v11 : S128x128.Idx → EReal)
    = Cert.Mha.bdiag (m ((c : Thread nD τ).loc main_arg3) : S64x64.Idx → EReal) := by
  dsimp only [Gen.V, Gen.hostOps0]
  after_results_join
  exact join_bdiag _ _ _ _ (zeros_apply _)

end Cert.MhaHost

end
-- ==== Proof.KernelFinal.lean ====
/-
  The output array of the tiled program after its run: the second arrangement's output of the four argument arrays.

  The three weight arrays the region reads are built on the host before it, each as the block-diagonal matrix of one
  64 × 64 weight argument; with that, every grid point writes its block of the second arrangement's output array, and
  the blocks fill the array.
-/
import proofs.«149019_j15032385536440_2_alg».proof.Proof.KernelValue
import proofs.«149019_j15032385536440_2_alg».proof.Proof.HostWeights

noncomputable section

namespace Cert.MhaKernel

open Cert.KernelIdeal Cert.KernelIdeal.Gen Idealize.ShloMosaic Idealize.ShloMosaic.ValueIdx Idealize.ShloMosaic.TcCoe Idealize.SL.Sem Cert.Mha

/-- THE OUTPUT ARRAY after the run. -/
theorem final (m : (ℓ : Loc nD τ sig) → Buf (Elt Ideal) ℓ) (c : Dev nD) :
    (dats m 0 c).arrAt 4 cfg0.N
      = outLast (m ((c : Thread nD τ).loc main_arg0)) (m ((c : Thread nD τ).loc main_arg1)) (m ((c : Thread nD τ).loc main_arg2)) (m ((c : Thread nD τ).loc main_arg3)) :=
  final_of m c (fun n k => congrFun (Cert.MhaHost.V_main_v3 m c) (ix2 n k)) (fun n k => congrFun (Cert.MhaHost.V_main_v7 m c) (ix2 n k))
    (fun n k => congrFun (Cert.MhaHost.V_main_v11 m c) (ix2 n k))

end Cert.MhaKernel

end
-- ==== Proof.lean ====
/-
  Multi-head attention with a value residual: a tiled program and a plain program compute the same array on finite inputs.

  The input x has shape [4, 2048, 1024]: 4 batches, 2048 times, 16 heads of 64 features side by side on the last axis.
  Three 64 by 64 weight matrices, shared by all heads, project each head's row of 64 features to queries, keys and
  values. For one head of one batch the score of time t against time s is the inner product of query t with key s,
  scaled by one eighth; the weights of row t are exp (score − the row's largest score); the output row t is the
  weighted mean of the value rows plus value row t itself. The heads' outputs sit side by side as the heads' inputs do.

  The plain program works one head at a time: it splits the last axis into heads, projects, divides the inner products
  by 64 to the power one half, subtracts the row maximum (taken from −∞, and once more against −∞), exponentiates,
  divides every weight by the row's total (started from zero), sums the weighted values, adds the values, and joins the
  heads again. The tiled program works one (batch, pair of heads) block of shape [2048, 128] at a time, 32 blocks in
  all: it projects both heads of the pair at once by 128 by 128 matrices that carry the 64 by 64 weights twice on the
  diagonal and zero elsewhere, cuts the queries into four tiles of 512 rows, multiplies the inner products by one eighth,
  sums the weighted values first and divides that sum by the row's plain total afterwards, and writes the two heads'
  results side by side into the block's rows.

  What is proved. Each of the three programs runs and leaves its four arguments as launched: for the tiled program, as
  printed and over the extended reals, these are the generated frame runs; for the plain program it is the second half
  of its generated run's statement. The tiled program over the extended reals is the tiled program's own text, so there
  is nothing to preserve. The algebraic claim: from memories that agree on the four arguments, the tiled program's result
  array is, index by index, the output with the weights normalised last (modules Proj, Tile, Slab, KernelValue, HostWeights,
  BlockLaw and KernelFinal: the three projections of a block read at an entry; one 512-row tile of one head read at an
  entry; the four stored slabs together are one function of the block's loads; through the block-diagonal weights, whose
  zero entries drop out of every sum, that function is the output for the block's two heads; and every array index
  lies in the block of its batch and head pair, so the 32 blocks fill the array); the
  plain program's result array is the output with the weights normalised first (module RefValue: its stages read at an
  index, on all extended reals); the precondition says every input entry has absolute value below +∞, so every entry is
  a real number (module Finite); and for real entries the two arrangements are the same number (module Law: every
  projection and score is real, the row maximum is real so taking it against −∞ again changes nothing, every weight is
  a positive real so the total is a nonzero real, 64 to the power one half is 8 so dividing by it is multiplying by one
  eighth, and dividing each weight by the total before the sum over the values equals dividing the sum afterwards).
  Module Assemble puts the runs and these equations together.
-/
import proofs.«149019_j15032385536440_2_alg».proof.Defs
import proofs.«149019_j15032385536440_2_alg».proof.Proof.Gen.Kernel
import proofs.«149019_j15032385536440_2_alg».proof.Proof.Gen.KernelIdeal
import proofs.«149019_j15032385536440_2_alg».proof.Proof.Gen.ReferenceIdeal
import proofs.«149019_j15032385536440_2_alg».proof.Proof.Gen.Pre_finite_inputs
import proofs.«149019_j15032385536440_2_alg».proof.Proof.Assemble
import proofs.«149019_j15032385536440_2_alg».proof.Proof.KernelFinal

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic_of Cert.MhaKernel.final⟩

end Cert.Proof

end
